-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000x16 : Shape := ⟨2, ![1000000, 16]⟩
abbrev S1000000 : Shape := ⟨1, ![1000000]⟩
abbrev S132x132 : Shape := ⟨2, ![132, 132]⟩
abbrev S132 : Shape := ⟨1, ![132]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000x16 : S_.BroadcastsInDim S1000000x16 (![] : Fin 0 → Fin S1000000x16.rank)
  reducesTo_S1000000x16_S_d0_1 : S1000000x16.ReducesTo [0, 1] S_
  bcast_S_S1000000 : S_.BroadcastsInDim S1000000 (![] : Fin 0 → Fin S1000000.rank)
  reducesTo_S1000000_S_d0 : S1000000.ReducesTo [0] S_
  bcast_S_S132x132 : S_.BroadcastsInDim S132x132 (![] : Fin 0 → Fin S132x132.rank)
  reducesTo_S132x132_S_d0_1 : S132x132.ReducesTo [0, 1] S_
  bcast_S_S132 : S_.BroadcastsInDim S132 (![] : Fin 0 → Fin S132.rank)
  reducesTo_S132_S_d0 : S132.ReducesTo [0] S_

variable [Facts]

def fn_part1 {F : FTy → Type} [FloatOps F] (main_arg4 : FVec F S132 .f32) (main_v13 : IVec S_ 1) (main_v16 : IVec S132x132 1) : IVec S_ 1 :=
  let main_c_5 : IVec S_ 1 := constantI S_ 1 1#1
  let main_v17 : IVec S_ 1 := (fun x v => Host.reduce IntOp.andi x v reducesTo_S132x132_S_d0_1 h_S_) main_v16 main_c_5
  let main_v18 : IVec S_ 1 := andi main_v13 main_v17
  let main_v19 : FVec F S132 .f32 := Host.absf main_arg4
  let main_cst_6 : FVec F S_ .f32 := constant S_ .f32 0x7F800000#32
  let main_v20 : FVec F S132 .f32 := broadcastInDim S132 ![] bcast_S_S132 main_cst_6
  let main_v21 : IVec S132 1 := cmpf .olt main_v19 main_v20
  let main_c_7 : IVec S_ 1 := constantI S_ 1 1#1
  let main_v22 : IVec S_ 1 := (fun x v => Host.reduce IntOp.andi x v reducesTo_S132_S_d0 h_S_) main_v21 main_c_7
  let main_v23 : IVec S_ 1 := andi main_v18 main_v22
  main_v23

def fn {F : FTy → Type} [FloatOps F] (main_arg0 : FVec F S1000000x128 .f32) (main_arg1 : FVec F S1000000x16 .f32) (main_arg2 : FVec F S1000000 .f32) (main_arg3 : FVec F S132x132 .f32) (main_arg4 : FVec F S132 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x16 .f32 := Host.absf main_arg1
  let main_cst_0 : FVec F S_ .f32 := constant S_ .f32 0x7F800000#32
  let main_v5 : FVec F S1000000x16 .f32 := broadcastInDim S1000000x16 ![] bcast_S_S1000000x16 main_cst_0
  let main_v6 : IVec S1000000x16 1 := cmpf .olt main_v4 main_v5
  let main_c_1 : IVec S_ 1 := constantI S_ 1 1#1
  let main_v7 : IVec S_ 1 := (fun x v => Host.reduce IntOp.andi x v reducesTo_S1000000x16_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S132x132 .f32 := Host.absf main_arg3
  let main_cst_4 : FVec F S_ .f32 := constant S_ .f32 0x7F800000#32
  let main_v15 : FVec F S132x132 .f32 := broadcastInDim S132x132 ![] bcast_S_S132x132 main_cst_4
  let main_v16 : IVec S132x132 1 := cmpf .olt main_v14 main_v15
  fn_part1 (F := F) main_arg4 main_v13 main_v16
-- ==== Kernel.lean ====
abbrev S1000000x128 : Shape := ⟨2, ![1000000, 128]⟩
abbrev S1000000x16 : Shape := ⟨2, ![1000000, 16]⟩
abbrev S1000000 : Shape := ⟨1, ![1000000]⟩
abbrev S132x132 : Shape := ⟨2, ![132, 132]⟩
abbrev S132 : Shape := ⟨1, ![132]⟩
abbrev S16 : Shape := ⟨1, ![16]⟩
abbrev S16x1 : Shape := ⟨2, ![16, 1]⟩
abbrev S1x4 : Shape := ⟨2, ![1, 4]⟩
abbrev S16x4 : Shape := ⟨2, ![16, 4]⟩
abbrev S128x132 : Shape := ⟨2, ![128, 132]⟩
abbrev S4x132 : Shape := ⟨2, ![4, 132]⟩
abbrev S16x132 : Shape := ⟨2, ![16, 132]⟩
abbrev S128x128 : Shape := ⟨2, ![128, 128]⟩
abbrev S128x4 : Shape := ⟨2, ![128, 4]⟩
abbrev S16x128 : Shape := ⟨2, ![16, 128]⟩
abbrev S128 : Shape := ⟨1, ![128]⟩
abbrev S1x128 : Shape := ⟨2, ![1, 128]⟩
abbrev S4 : Shape := ⟨1, ![4]⟩
abbrev S5000x128 : Shape := ⟨2, ![5000, 128]⟩
abbrev S5000x16 : Shape := ⟨2, ![5000, 16]⟩
abbrev S5000x4 : Shape := ⟨2, ![5000, 4]⟩
abbrev S5000x1 : Shape := ⟨2, ![5000, 1]⟩
abbrev S5000x3 : Shape := ⟨2, ![5000, 3]⟩
abbrev S5000x5 : Shape := ⟨2, ![5000, 5]⟩
abbrev S5000x7 : Shape := ⟨2, ![5000, 7]⟩

abbrev nBuf : Space → Nat
  | .hbm => 29
  | .vmem => 14
  | .smem => 0
  | _ => 0

abbrev bufTy : (tb : Table) → Fin (tcTables nBuf tb) → BufTy
  | .hbm, ⟨0, _⟩ => ⟨S1000000x128, .f32⟩
  | .hbm, ⟨1, _⟩ => ⟨S1000000x16, .f32⟩
  | .hbm, ⟨2, _⟩ => ⟨S1000000, .f32⟩
  | .hbm, ⟨3, _⟩ => ⟨S132x132, .f32⟩
  | .hbm, ⟨4, _⟩ => ⟨S132, .f32⟩
  | .hbm, ⟨5, _⟩ => ⟨S16, .i32⟩
  | .hbm, ⟨6, _⟩ => ⟨S16x1, .i32⟩
  | .hbm, ⟨7, _⟩ => ⟨S1x4, .i32⟩
  | .hbm, ⟨8, _⟩ => ⟨S16x4, .i32⟩
  | .hbm, ⟨9, _⟩ => ⟨S16x4, .i32⟩
  | .hbm, ⟨10, _⟩ => ⟨S16x4, .i1⟩
  | .hbm, ⟨11, _⟩ => ⟨S16x4, .f32⟩
  | .hbm, ⟨12, _⟩ => ⟨S128x132, .f32⟩
  | .hbm, ⟨13, _⟩ => ⟨S4x132, .f32⟩
  | .hbm, ⟨14, _⟩ => ⟨S16x132, .f32⟩
  | .hbm, ⟨15, _⟩ => ⟨S128x128, .f32⟩
  | .hbm, ⟨16, _⟩ => ⟨S128x128, .bf16⟩
  | .hbm, ⟨17, _⟩ => ⟨S128x4, .f32⟩
  | .hbm, ⟨18, _⟩ => ⟨S128x4, .bf16⟩
  | .hbm, ⟨19, _⟩ => ⟨S16x128, .f32⟩
  | .hbm, ⟨20, _⟩ => ⟨S16x128, .bf16⟩
  | .hbm, ⟨21, _⟩ => ⟨S16x4, .f32⟩
  | .hbm, ⟨22, _⟩ => ⟨S16x4, .bf16⟩
  | .hbm, ⟨23, _⟩ => ⟨S128, .f32⟩
  | .hbm, ⟨24, _⟩ => ⟨S1x128, .f32⟩
  | .hbm, ⟨25, _⟩ => ⟨S4, .f32⟩
  | .hbm, ⟨26, _⟩ => ⟨S1x4, .f32⟩
  | .hbm, ⟨27, _⟩ => ⟨S1000000x128, .f32⟩
  | .hbm, ⟨28, _⟩ => ⟨S1000000x16, .f32⟩
  | .local _ .vmem, ⟨0, _⟩ => ⟨S5000x128, .f32⟩
  | .local _ .vmem, ⟨1, _⟩ => ⟨S5000x128, .f32⟩
  | .local _ .vmem, ⟨2, _⟩ => ⟨S5000x16, .f32⟩
  | .local _ .vmem, ⟨3, _⟩ => ⟨S5000x16, .f32⟩
  | .local _ .vmem, ⟨4, _⟩ => ⟨S128x128, .bf16⟩
  | .local _ .vmem, ⟨5, _⟩ => ⟨S128x4, .bf16⟩
  | .local _ .vmem, ⟨6, _⟩ => ⟨S16x128, .bf16⟩
  | .local _ .vmem, ⟨7, _⟩ => ⟨S16x4, .bf16⟩
  | .local _ .vmem, ⟨8, _⟩ => ⟨S1x128, .f32⟩
  | .local _ .vmem, ⟨9, _⟩ => ⟨S1x4, .f32⟩
  | .local _ .vmem, ⟨10, _⟩ => ⟨S5000x128, .f32⟩
  | .local _ .vmem, ⟨11, _⟩ => ⟨S5000x128, .f32⟩
  | .local _ .vmem, ⟨12, _⟩ => ⟨S5000x16, .f32⟩
  | .local _ .vmem, ⟨13, _⟩ => ⟨S5000x16, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x4 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S16_S16x1_0 : S16.BroadcastsInDim S16x1 (![0] : Fin 1 → Fin S16x1.rank)
  bcast_S16x1_S16x4_0_1 : S16x1.BroadcastsInDim S16x4 (![0, 1] : Fin 2 → Fin S16x4.rank)
  bcast_S1x4_S16x4_0_1 : S1x4.BroadcastsInDim S16x4 (![0, 1] : Fin 2 → Fin S16x4.rank)
  slices_S132x132_S128x132_0_0 : S132x132.Slices ![0, 0] S128x132
  slices_S132x132_S4x132_128_0 : S132x132.Slices ![128, 0] S4x132
  slices_S128x132_S128x128_0_0 : S128x132.Slices ![0, 0] S128x128
  bitsLt_bf16_f32 : FTy.bits .bf16 < FTy.bits .f32
  slices_S128x132_S128x4_0_128 : S128x132.Slices ![0, 128] S128x4
  slices_S16x132_S16x128_0_0 : S16x132.Slices ![0, 0] S16x128
  slices_S16x132_S16x4_0_128 : S16x132.Slices ![0, 128] S16x4
  slices_S132_S128_0 : S132.Slices ![0] S128
  shapeCasts_S128_S1x128 : S128.ShapeCasts S1x128
  slices_S132_S4_128 : S132.Slices ![128] S4
  shapeCasts_S4_S1x4 : S4.ShapeCasts S1x4
  inb_S5000x128_S5000x128_0_0 : ∀ a, (![0, 0] : Fin 2 → Nat) a + S5000x128.size a ≤ S5000x128.size a
  h_S5000x128 : 0 < S5000x128.numel
  inb_S5000x16_S5000x16_0_0 : ∀ a, (![0, 0] : Fin 2 → Nat) a + S5000x16.size a ≤ S5000x16.size a
  h_S5000x16 : 0 < S5000x16.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x4_S16x4_0_0 : ∀ a, (![0, 0] : Fin 2 → Nat) a + S16x4.size a ≤ S16x4.size a
  h_S16x4 : 0 < S16x4.numel
  shapeCasts_S16x4_S16x4 : S16x4.ShapeCasts S16x4
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  slices_S5000x4_o0_0_S5000x1 : S5000x4.Slices ![0, 0] S5000x1
  slices_S5000x16_o0_0_S5000x1 : S5000x16.Slices ![0, 0] S5000x1
  slices_S5000x4_o0_1_S5000x1 : S5000x4.Slices ![0, 1] S5000x1
  shapeCasts_S5000x1_S5000x1 : S5000x1.ShapeCasts S5000x1
  broadcasts_S5000x1_S5000x3 : S5000x1.Broadcasts S5000x3
  slices_S5000x16_o0_1_S5000x3 : S5000x16.Slices ![0, 1] S5000x3
  slices_S5000x4_o0_2_S5000x1 : S5000x4.Slices ![0, 2] S5000x1
  broadcasts_S5000x1_S5000x5 : S5000x1.Broadcasts S5000x5
  slices_S5000x16_o0_4_S5000x5 : S5000x16.Slices ![0, 4] S5000x5
  slices_S5000x4_o0_3_S5000x1 : S5000x4.Slices ![0, 3] S5000x1
  broadcasts_S5000x1_S5000x7 : S5000x1.Broadcasts S5000x7
  slices_S5000x16_o0_9_S5000x7 : S5000x16.Slices ![0, 9] S5000x7
  concatenates_S5000x1_S5000x3_S5000x5_S5000x7_S5000x16_d1 : Shape.Concatenates [S5000x1, S5000x3, S5000x5, S5000x7] S5000x16 1
  dot_S16x4_S4x132_S16x132_1_0_0_1_n_n_wf : DotDims.WF S16x4 S4x132 S16x132 [1] [0] [0] [1] [] []
  dot_S5000x128_S128x128_S5000x128_1_0_0_1_n_n_wf : DotDims.WF S5000x128 S128x128 S5000x128 [1] [0] [0] [1] [] []
  dot_S5000x16_S16x128_S5000x128_1_0_0_1_n_n_wf : DotDims.WF S5000x16 S16x128 S5000x128 [1] [0] [0] [1] [] []
  dot_S5000x128_S128x4_S5000x4_1_0_0_1_n_n_wf : DotDims.WF S5000x128 S128x4 S5000x4 [1] [0] [0] [1] [] []
  dot_S5000x16_S16x4_S5000x4_1_0_0_1_n_n_wf : DotDims.WF S5000x16 S16x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S1000000x16.size a
  hwx0_1 : ∀ i : grid0.Coords, EltTy.bits .f32 = 32 ∨ (Rect.block (s := S1000000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x4.size a ≤ S128x4.size a
  hwx0_3 : ∀ i : grid0.Coords, EltTy.bits .bf16 = 32 ∨ (Rect.block (s := S128x4) S128x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x128.size a ≤ S16x128.size a
  hwx0_4 : ∀ i : grid0.Coords, EltTy.bits .bf16 = 32 ∨ (Rect.block (s := S16x128) S16x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x4.size a ≤ S16x4.size a
  hwx0_5 : ∀ i : grid0.Coords, EltTy.bits .bf16 = 32 ∨ (Rect.block (s := S16x4) S16x4.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4.size a ≤ S1x4.size a
  hwx0_7 : ∀ i : grid0.Coords, EltTy.bits .f32 = 32 ∨ (Rect.block (s := S1x4) S1x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S1000000x128.size a
  hwx0_8 : ∀ i : grid0.Coords, EltTy.bits .f32 = 32 ∨ (Rect.block (s := S1000000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x16.size a ≤ S1000000x16.size a
  hwx0_9 : ∀ i : grid0.Coords, EltTy.bits .f32 = 32 ∨ (Rect.block (s := S1000000x16) S5000x16.size (cc0_transform_9 i) (hinb0_9 i)).WholeWords (EltTy.packing .f32)

variable [Facts₀]

def dot_S16x4_S4x132_S16x132_1_0_0_1_n_n : DotDims S16x4 S4x132 S16x132 where
  lhsContracting := [1]
  rhsContracting := [0]
  lhsNonContracting := [0]
  rhsNonContracting := [1]
  lhsBatch := []
  rhsBatch := []
  wf := dot_S16x4_S4x132_S16x132_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def dot_S5000x16_S16x4_S5000x4_1_0_0_1_n_n : DotDims S5000x16 S16x4 S5000x4 where
  lhsContracting := [1]
  rhsContracting := [0]
  lhsNonContracting := [0]
  rhsNonContracting := [1]
  lhsBatch := []
  rhsBatch := []
  wf := dot_S5000x16_S16x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S128x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S16x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S16x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v16_1) S5000x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000x16 : Shape := ⟨2, ![1000000, 16]⟩
abbrev S1000000 : Shape := ⟨1, ![1000000]⟩
abbrev S132x132 : Shape := ⟨2, ![132, 132]⟩
abbrev S132 : Shape := ⟨1, ![132]⟩
abbrev S16 : Shape := ⟨1, ![16]⟩
abbrev S16x1 : Shape := ⟨2, ![16, 1]⟩
abbrev S1x4 : Shape := ⟨2, ![1, 4]⟩
abbrev S16x4 : Shape := ⟨2, ![16, 4]⟩
abbrev S1000000x4 : Shape := ⟨2, ![1000000, 4]⟩
abbrev S1000000x132 : Shape := ⟨2, ![1000000, 132]⟩
abbrev S1x132 : Shape := ⟨2, ![1, 132]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x16, .f32⟩
  | .hbm, ⟨2, _⟩ => ⟨S1000000, .f32⟩
  | .hbm, ⟨3, _⟩ => ⟨S132x132, .f32⟩
  | .hbm, ⟨4, _⟩ => ⟨S132, .f32⟩
  | .hbm, ⟨5, _⟩ => ⟨S16, .i32⟩
  | .hbm, ⟨6, _⟩ => ⟨S16x1, .i32⟩
  | .hbm, ⟨7, _⟩ => ⟨S1x4, .i32⟩
  | .hbm, ⟨8, _⟩ => ⟨S16x4, .i32⟩
  | .hbm, ⟨9, _⟩ => ⟨S16x4, .i32⟩
  | .hbm, ⟨10, _⟩ => ⟨S16x4, .i1⟩
  | .hbm, ⟨11, _⟩ => ⟨S16x4, .f32⟩
  | .hbm, ⟨12, _⟩ => ⟨S1000000x16, .f32⟩
  | .hbm, ⟨13, _⟩ => ⟨S1000000x4, .f32⟩
  | .hbm, ⟨14, _⟩ => ⟨S1000000x132, .f32⟩
  | .hbm, ⟨15, _⟩ => ⟨S1000000x132, .f32⟩
  | .hbm, ⟨16, _⟩ => ⟨S1x132, .f32⟩
  | .hbm, ⟨17, _⟩ => ⟨S1000000x132, .f32⟩
  | .hbm, ⟨18, _⟩ => ⟨S1000000x132, .f32⟩
  | .hbm, ⟨19, _⟩ => ⟨S1000000x128, .f32⟩
  | .hbm, ⟨20, _⟩ => ⟨S1000000x4, .f32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S16x1, .i32⟩
  | .hbm, ⟨29, _⟩ => ⟨S1000000x16, .f32⟩
  | .hbm, ⟨30, _⟩ => ⟨S1000000x16, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S16x1_S16x4_0_1 : S16x1.BroadcastsInDim S16x4 (![0, 1] : Fin 2 → Fin S16x4.rank)
  bcast_S1x4_S16x4_0_1 : S1x4.BroadcastsInDim S16x4 (![0, 1] : Fin 2 → Fin S16x4.rank)
  concatenates_S1000000x128_S1000000x4_S1000000x132_d1 : Shape.Concatenates [S1000000x128, S1000000x4] S1000000x132 1
  bcast_S132_S1x132_1 : S132.BroadcastsInDim S1x132 (![1] : Fin 1 → Fin S1x132.rank)
  bcast_S1x132_S1000000x132_0_1 : S1x132.BroadcastsInDim S1000000x132 (![0, 1] : Fin 2 → Fin S1000000x132.rank)
  slices_S1000000x132_S1000000x128_0_0 : S1000000x132.Slices ![0, 0] S1000000x128
  slices_S1000000x132_S1000000x4_0_128 : S1000000x132.Slices ![0, 128] S1000000x4
  bcast_S_S16 : S_.BroadcastsInDim S16 (![] : Fin 0 → Fin S16.rank)
  dot_S1000000x16_S16x4_S1000000x4_1_0_0_1_n_n_wf : DotDims.WF S1000000x16 S16x4 S1000000x4 [1] [0] [0] [1] [] []
  dot_S1000000x132_S132x132_S1000000x132_1_0_0_1_n_n_wf : DotDims.WF S1000000x132 S132x132 S1000000x132 [1] [0] [0] [1] [] []
  gather_S1000000x4_S16x1_S1000000x16_0_1_n_n_1_1_10000001_wf : GatherDims.WF S1000000x4 S16x1 S1000000x16 [0] [1] [] [1] [] 1 ![1000000, 1]

variable [Facts₀]

def dot_S1000000x16_S16x4_S1000000x4_1_0_0_1_n_n : DotDims S1000000x16 S16x4 S1000000x4 where
  lhsContracting := [1]
  rhsContracting := [0]
  lhsNonContracting := [0]
  rhsNonContracting := [1]
  lhsBatch := []
  rhsBatch := []
  wf := dot_S1000000x16_S16x4_S1000000x4_1_0_0_1_n_n_wf
def dot_S1000000x132_S132x132_S1000000x132_1_0_0_1_n_n : DotDims S1000000x132 S132x132 S1000000x132 where
  lhsContracting := [1]
  rhsContracting := [0]
  lhsNonContracting := [0]
  rhsNonContracting := [1]
  lhsBatch := []
  rhsBatch := []
  wf := dot_S1000000x132_S132x132_S1000000x132_1_0_0_1_n_n_wf
def gather_S1000000x4_S16x1_S1000000x16_0_1_n_n_1_1_10000001 : GatherDims S1000000x4 S16x1 S1000000x16 where
  offsetDims := [0]
  collapsedSliceDims := [1]
  operandBatchingDims := []
  startIndicesBatchingDims := []
  startIndexMap := [1]
  indexVectorDim := 1
  sliceSizes := ![1000000, 1]
  wf := gather_S1000000x4_S16x1_S1000000x16_0_1_n_n_1_1_10000001_wf

class Facts : Prop extends Facts₀ where

variable [Facts]
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.Spec.lean ====
/-
  The interaction block as ONE function of its argument arrays, index by index, over the extended reals.

  Per row n:  d[n,l] = Σ_m chi[n,m]² · oh[m,l]   (oh the 16×4 one-hot of the degree table: component m belongs to degree seg m),
              y[n,·] = (x[n,·], d[n,·])           (132 entries),
              h[n,j] = Σ_k y[n,k] · W[k,j] + b[j],
  and the two results are  a1[n,j] = h[n,j] (j < 128)  and  chi_out[n,m] = h[n,128 + seg m] · chi[n,m].

  The same h in the arrangement that folds the one-hot into the weights:
              h[n,j] = (Σ_{k<128} x[n,k] · W[k,j] + Σ_m chi[n,m]² · (Σ_l oh[m,l] · W[128+l,j])) + b[j].
  The two arrangements differ by exchanging the sums over m and l and distributing a factor over a sum; on the extended
  reals that is valid when chi, oh and W are real-valued (no infinity), which is where finiteness of the inputs is used.
-/
import Idealize.ShloMosaic.PureOps.Ideal
import Idealize.ShloMosaic.Lib.ValueIdx

noncomputable section

open scoped BigOperators

namespace Cert.Interaction

open Idealize.ShloMosaic Idealize.ShloMosaic.ValueIdx

abbrev SN128 : Shape := ⟨2, ![1000000, 128]⟩
abbrev SN16 : Shape := ⟨2, ![1000000, 16]⟩
abbrev SW : Shape := ⟨2, ![132, 132]⟩
abbrev SB : Shape := ⟨1, ![132]⟩
abbrev SOH : Shape := ⟨2, ![16, 4]⟩
abbrev SSeg : Shape := ⟨1, ![16]⟩
abbrev SSeg1 : Shape := ⟨2, ![16, 1]⟩
abbrev SIota : Shape := ⟨2, ![1, 4]⟩

theorem bc_seg : SSeg.BroadcastsInDim SSeg1 (![0] : Fin 1 → Fin SSeg1.rank) := by decide
theorem bc_col : SSeg1.BroadcastsInDim SOH (![0, 1] : Fin 2 → Fin SOH.rank) := by decide
theorem bc_iota : SIota.BroadcastsInDim SOH (![0, 1] : Fin 2 → Fin SOH.rank) := by decide

/-- The 16×4 one-hot of a table of degrees: entry (m, l) is 1 when the table's word at m is l, else 0 —
    as the comparison of the table broadcast along the columns with the column counter, converted to a float. -/
def oneHot (tbl : Fin 16 → BitVec 32) : FVec Ideal SOH .f32 :=
  uitofp .f32 (cmpi .eq
    (broadcastInDim SOH ![0, 1] bc_col (broadcastInDim SSeg1 ![0] bc_seg (fun i => tbl (SSeg.rowMajor i))))
    (broadcastInDim SOH ![0, 1] bc_iota (iotaInDim SIota 32 1)))

/-- Every entry of the one-hot is a real number (0 or 1). -/
theorem oneHot_real (tbl : Fin 16 → BitVec 32) (i : SOH.Idx) : ∃ r : ℝ, oneHot tbl i = (r : EReal) := ⟨_, rfl⟩

/-- The degree of component m: sizes 1, 3, 5, 7. -/
def seg : Fin 16 → Fin 4 := ![0, 1, 1, 1, 2, 2, 2, 2, 2, 3, 3, 3, 3, 3, 3, 3]

section
variable (x : SN128.Idx → EReal) (chi : SN16.Idx → EReal) (oh : SOH.Idx → EReal) (W : SW.Idx → EReal) (b : SB.Idx → EReal)

/-- The per-degree invariant: d[n,l] = Σ_m chi[n,m]² · oh[m,l]. -/
def dchi (n : Fin 1000000) (l : Fin 4) : EReal := ∑ m : Fin 16, (chi (ix2 n m) * chi (ix2 n m)) * oh (ix2 m l)

/-- Row n of the concatenation (x, d). -/
def ycat (n : Fin 1000000) (k : Fin 132) : EReal :=
  if h : k.val < 128 then x (ix2 n ⟨k.val, h⟩) else dchi chi oh n ⟨k.val - 128, by omega⟩

/-- The dense layer: h[n,j] = Σ_k y[n,k] · W[k,j] + b[j]. -/
def hid (n : Fin 1000000) (j : Fin 132) : EReal := (∑ k : Fin 132, ycat x chi oh n k * W (ix2 k j)) + b (ix1 j)

/-- Result 0: the first 128 columns of h. -/
def outA : SN128.Idx → EReal := fun i => hid x chi oh W b (i 0) ⟨(i 1).val, by have h : (i 1).val < 128 := (i 1).isLt; omega⟩

/-- Result 1: chi gated by its degree's column of h. -/
def outChi : SN16.Idx → EReal := fun i =>
  hid x chi oh W b (i 0) ⟨128 + (seg (i 1)).val, by have := (seg (i 1)).isLt; omega⟩ * chi i

/-- The one-hot folded into the last four rows of the weights: Wc[m,j] = Σ_l oh[m,l] · W[128+l,j]. -/
def wfold (m : Fin 16) (j : Fin 132) : EReal := ∑ l : Fin 4, oh (ix2 m l) * W (ix2 ⟨128 + l.val, by omega⟩ j)

/-- h in the folded arrangement. -/
def hidFold (n : Fin 1000000) (j : Fin 132) : EReal :=
  ((∑ k : Fin 128, x (ix2 n k) * W (ix2 ⟨k.val, by omega⟩ j))
    + (∑ m : Fin 16, (chi (ix2 n m) * chi (ix2 n m)) * wfold oh W m j)) + b (ix1 j)

end

/-- The coercion of the reals into the extended reals commutes with finite sums. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Exchanging the two sums, over the reals. -/
theorem exchange_real (c : Fin 16 → ℝ) (o : Fin 16 → Fin 4 → ℝ) (w : Fin 4 → ℝ) :
    ∑ l : Fin 4, (∑ m : Fin 16, c m * o m l) * w l = ∑ m : Fin 16, c m * ∑ l : Fin 4, o m l * w l := by
  simp only [Finset.sum_mul, Finset.mul_sum]
  rw [Finset.sum_comm]
  refine Finset.sum_congr rfl fun m _ => Finset.sum_congr rfl fun l _ => ?_
  ring

/-- The same on the extended reals, for real-valued data. -/
theorem exchange (c : Fin 16 → EReal) (o : Fin 16 → Fin 4 → EReal) (w : Fin 4 → EReal)
    (hc : ∀ m, ∃ r : ℝ, c m = (r : EReal)) (ho : ∀ m l, ∃ r : ℝ, o m l = (r : EReal)) (hw : ∀ l, ∃ r : ℝ, w l = (r : EReal)) :
    ∑ l : Fin 4, (∑ m : Fin 16, c m * o m l) * w l = ∑ m : Fin 16, c m * ∑ l : Fin 4, o m l * w l := by
  choose cr hcr using hc
  choose or hor using ho
  choose wr hwr using hw
  simp only [hcr, hor, hwr, ← EReal.coe_mul, ← coe_sum]
  exact congrArg _ (exchange_real cr or wr)

section
variable (x : SN128.Idx → EReal) (chi : SN16.Idx → EReal) (oh : SOH.Idx → EReal) (W : SW.Idx → EReal) (b : SB.Idx → EReal)

/-- The sum over the 132 entries of a row splits into its first 128 and its last 4. -/
theorem sum_split (f : Fin 132 → EReal) :
    ∑ k : Fin 132, f k = (∑ k : Fin 128, f ⟨k.val, by omega⟩) + ∑ l : Fin 4, f ⟨128 + l.val, by omega⟩ := by
  have h := Fin.sum_univ_add (M := EReal) (a := 128) (b := 4) (fun k : Fin (128 + 4) => f ⟨k.val, k.isLt⟩)
  exact h

/-- The two arrangements of h agree when chi, oh and W are real-valued. -/
theorem hid_eq_hidFold (hchi : ∀ i, ∃ r : ℝ, chi i = (r : EReal)) (hoh : ∀ i, ∃ r : ℝ, oh i = (r : EReal))
    (hW : ∀ i, ∃ r : ℝ, W i = (r : EReal)) (n : Fin 1000000) (j : Fin 132) :
    hid x chi oh W b n j = hidFold x chi oh W b n j := by
  unfold hid hidFold
  refine congrArg (· + b (ix1 j)) ?_
  rw [sum_split]
  refine congr (congrArg _ ?_) ?_
  · refine Finset.sum_congr rfl fun k _ => ?_
    unfold ycat
    rw [dif_pos (by exact k.isLt)]
  · have e : ∀ l : Fin 4, ycat x chi oh n ⟨128 + l.val, by omega⟩ = dchi chi oh n l := by
      intro l
      unfold ycat
      rw [dif_neg (by show ¬ (128 + l.val < 128); omega)]
      exact congrArg (dchi chi oh n) (Fin.ext (by show 128 + l.val - 128 = l.val; omega))
    simp only [e]
    unfold dchi wfold
    refine exchange (fun m => chi (ix2 n m) * chi (ix2 n m)) (fun m l => oh (ix2 m l))
      (fun l => W (ix2 ⟨128 + l.val, by omega⟩ j)) ?_ (fun m l => hoh _) (fun l => hW _)
    intro m
    obtain ⟨r, hr⟩ := hchi (ix2 n m)
    exact ⟨r * r, by rw [hr, EReal.coe_mul]⟩

end

section
variable (x : SN128.Idx → EReal) (chi : SN16.Idx → EReal) (oh : SOH.Idx → EReal) (W : SW.Idx → EReal) (b : SB.Idx → EReal)

/-- Result 0 in the folded arrangement. -/
def outAFold : SN128.Idx → EReal := fun i =>
  hidFold x chi oh W b (i 0) ⟨(i 1).val, by have h : (i 1).val < 128 := (i 1).isLt; omega⟩

/-- Result 1 in the folded arrangement. -/
def outChiFold : SN16.Idx → EReal := fun i =>
  hidFold x chi oh W b (i 0) ⟨128 + (seg (i 1)).val, by have := (seg (i 1)).isLt; omega⟩ * chi i

theorem outA_eq_fold (hchi : ∀ i, ∃ r : ℝ, chi i = (r : EReal)) (hoh : ∀ i, ∃ r : ℝ, oh i = (r : EReal))
    (hW : ∀ i, ∃ r : ℝ, W i = (r : EReal)) : outA x chi oh W b = outAFold x chi oh W b :=
  funext fun _ => hid_eq_hidFold x chi oh W b hchi hoh hW _ _

theorem outChi_eq_fold (hchi : ∀ i, ∃ r : ℝ, chi i = (r : EReal)) (hoh : ∀ i, ∃ r : ℝ, oh i = (r : EReal))
    (hW : ∀ i, ∃ r : ℝ, W i = (r : EReal)) : outChi x chi oh W b = outChiFold x chi oh W b :=
  funext fun i => congrArg (· * chi i) (hid_eq_hidFold x chi oh W b hchi hoh hW _ _)

end

end Cert.Interaction

end
-- ==== Proof.KernelPay.lean ====
/-
  The kernel body's two stored values read at one entry of a 5000-row block, over the extended reals.

  With x the block of x rows, c the block of chi rows, and the resident pieces Wxa [128,128], Wxb [128,4], Wca [16,128],
  Wcb [16,4], ba [1,128], bb [1,4]:
    first store   a1[p, q]      = (Σ_k x[p,k]·Wxa[k,q] + Σ_m c[p,m]²·Wca[m,q]) + ba[0,q]
    gate          b1[p, l]      = (Σ_k x[p,k]·Wxb[k,l] + Σ_m c[p,m]²·Wcb[m,l]) + bb[0,l]
    second store  chi_out[p, m] = b1[p, seg m] · c[p, m],
  the last assembled from four column groups (widths 1, 3, 5, 7), group l using column l of b1.
  Rounding to the 16-bit format is the identity at the exact instance.
-/
import proofs.«151495_j49168785605360_2_alg».proof.Proof.Gen.KernelIdeal.Skeleton
import proofs.«151495_j49168785605360_2_alg».proof.Proof.LibPlainDot
import proofs.«151495_j49168785605360_2_alg».proof.Proof.Spec
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## The five products at an entry -/

theorem dot_x_a (l : FVec Ideal S5000x128 .bf16) (r : FVec Ideal S128x128 .bf16) (p : Fin 5000) (q : Fin 128) :
    FloatOps.matmul dot_S5000x128_S128x128_S5000x128_1_0_0_1_n_n none l r (constant (F := Ideal) S5000x128 .f32 0x00000000#32) (ix2 p q)
      = ∑ k : Fin 128, l (ix2 p k) * r (ix2 k q) :=
  PlainDot.matmul_zero_apply _ none rfl rfl (fun _ _ => rfl) (fun _ _ => rfl) (fun _ _ => rfl) (fun _ _ => rfl) l r p q

theorem dot_c_a (l : FVec Ideal S5000x16 .bf16) (r : FVec Ideal S16x128 .bf16) (p : Fin 5000) (q : Fin 128) :
    FloatOps.matmul dot_S5000x16_S16x128_S5000x128_1_0_0_1_n_n none l r (constant (F := Ideal) S5000x128 .f32 0x00000000#32) (ix2 p q)
      = ∑ k : Fin 16, l (ix2 p k) * r (ix2 k q) :=
  PlainDot.matmul_zero_apply _ none rfl rfl (fun _ _ => rfl) (fun _ _ => rfl) (fun _ _ => rfl) (fun _ _ => rfl) l r p q

theorem dot_x_b (l : FVec Ideal S5000x128 .bf16) (r : FVec Ideal S128x4 .bf16) (p : Fin 5000) (q : Fin 4) :
    FloatOps.matmul dot_S5000x128_S128x4_S5000x4_1_0_0_1_n_n none l r (constant (F := Ideal) S5000x4 .f32 0x00000000#32) (ix2 p q)
      = ∑ k : Fin 128, l (ix2 p k) * r (ix2 k q) :=
  PlainDot.matmul_zero_apply _ none rfl rfl (fun _ _ => rfl) (fun _ _ => rfl) (fun _ _ => rfl) (fun _ _ => rfl) l r p q

theorem dot_c_b (l : FVec Ideal S5000x16 .bf16) (r : FVec Ideal S16x4 .bf16) (p : Fin 5000) (q : Fin 4) :
    FloatOps.matmul dot_S5000x16_S16x4_S5000x4_1_0_0_1_n_n none l r (constant (F := Ideal) S5000x4 .f32 0x00000000#32) (ix2 p q)
      = ∑ k : Fin 16, l (ix2 p k) * r (ix2 k q) :=
  PlainDot.matmul_zero_apply _ none rfl rfl (fun _ _ => rfl) (fun _ _ => rfl) (fun _ _ => rfl) (fun _ _ => rfl) l r p q

/-! ## The first store and the gate -/

/-- a1[p,q] = (Σ_k x[p,k]·Wxa[k,q] + Σ_m c[p,m]²·Wca[m,q]) + ba[0,q]. -/
theorem payA_apply (x0 : FVec Ideal S5000x128 .f32) (x1 : FVec Ideal S5000x16 .f32) (w2 : FVec Ideal S128x128 .bf16)
    (w4 : FVec Ideal S16x128 .bf16) (b6 : FVec Ideal S1x128 .f32) (p : Fin 5000) (q : Fin 128) :
    k0_pay4 (F := Ideal) x0 x1 w2 w4 b6 (ix2 p q)
      = ((∑ k : Fin 128, x0 (ix2 p k) * w2 (ix2 k q)) + (∑ m : Fin 16, (x1 (ix2 p m) * x1 (ix2 p m)) * w4 (ix2 m q)))
        + b6 (ix2 (0 : Fin 1) q) := by
  unfold k0_pay4 k0_pay2 k0_pay3
  simp only [shapeCast_self]
  show (FloatOps.matmul _ none _ _ _ (ix2 p q) + FloatOps.matmul _ none _ _ _ (ix2 p q)) + broadcastTo S5000x128 b6 _ (ix2 p q) = _
  rw [dot_x_a, dot_c_a, broadcastTo_1b_ab_apply]
  rfl

/-- b1[p,l] = (Σ_k x[p,k]·Wxb[k,l] + Σ_m c[p,m]²·Wcb[m,l]) + bb[0,l]. -/
theorem payB_apply (x0 : FVec Ideal S5000x128 .f32) (x1 : FVec Ideal S5000x16 .f32) (w3 : FVec Ideal S128x4 .bf16)
    (w5 : FVec Ideal S16x4 .bf16) (b7 : FVec Ideal S1x4 .f32) (p : Fin 5000) (l : Fin 4) :
    k0_pay5 (F := Ideal) x0 x1 w3 w5 b7 (ix2 p l)
      = ((∑ k : Fin 128, x0 (ix2 p k) * w3 (ix2 k l)) + (∑ m : Fin 16, (x1 (ix2 p m) * x1 (ix2 p m)) * w5 (ix2 m l)))
        + b7 (ix2 (0 : Fin 1) l) := by
  unfold k0_pay5 k0_pay2 k0_pay3
  simp only [shapeCast_self]
  show (FloatOps.matmul _ none _ _ _ (ix2 p l) + FloatOps.matmul _ none _ _ _ (ix2 p l)) + broadcastTo S5000x4 b7 _ (ix2 p l) = _
  rw [dot_x_b, dot_c_b, broadcastTo_1b_ab_apply]
  rfl

/-! ## A column broadcast along its row: [a, 1] → [a, b] -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The second store: four column groups side by side -/

section Groups
variable (v1 : FVec Ideal S5000x16 .f32) (v26 : FVec Ideal S5000x4 .f32) (v29 : FVec Ideal S5000x1 .f32)
  (v34 : FVec Ideal S5000x3 .f32) (v37 v38 : FVec Ideal S5000x5 .f32) (p : Fin 5000)

/-- The four column groups, left to right. -/
abbrev groups : List ((s : Shape) × (s.Idx → Ideal .f32)) :=
  [⟨S5000x1, v29⟩, ⟨S5000x3, v34⟩, ⟨S5000x5, mulf v37 v38⟩,
    ⟨S5000x7, mulf (broadcastTo S5000x7 (shapeCast S5000x1 (extractStridedSlice S5000x1 ![0, 3] v26 Facts₀.slices_S5000x4_o0_3_S5000x1) Facts₀.shapeCasts_S5000x1_S5000x1) Facts₀.broadcasts_S5000x1_S5000x7)
      (extractStridedSlice S5000x7 ![0, 9] v1 Facts₀.slices_S5000x16_o0_9_S5000x7)⟩]

theorem pay1_eq : k0_pay1 (F := Ideal) v1 v26 v29 v34 v37 v38
    = concatenate S5000x16 1 (groups v1 v26 v29 v34 v37 v38) Facts₀.concatenates_S5000x1_S5000x3_S5000x5_S5000x7_S5000x16_d1 := rfl

private theorem off_axis {n0 n1 n2 : ℕ} (p : Fin n0) (q : Fin n1) (c : Fin n2) :
    ∀ b : Fin 2, b.cast (rfl : (2 : ℕ) = 2) ≠ (1 : Fin 2) → ((ix2 p q : (⟨2, ![n0, n1]⟩ : Shape).Idx) b).val = ((ix2 p c : (⟨2, ![n0, n2]⟩ : Shape).Idx) (b.cast rfl)).val := by
  intro b hb
  match b with
  | ⟨0, _⟩ => rfl
  | ⟨1, _⟩ => exact absurd rfl hb

/-- Column 0 is the first group's one column. -/
theorem cat0 : k0_pay1 (F := Ideal) v1 v26 v29 v34 v37 v38 (ix2 p (0 : Fin 16)) = v29 (ix2 p (0 : Fin 1)) := by
  rw [pay1_eq]
  exact concatenate_apply_piece (t := S5000x16) (1 : Fin 2) (groups v1 v26 v29 v34 v37 v38) _ (ix2 p (0 : Fin 16)) 0 (by show (0 : ℕ) < 4; omega) S5000x1 v29 rfl rfl 0 rfl (ix2 p (0 : Fin 1))
    (off_axis p 0 0) rfl

/-- Columns 1–3 are the second group's. -/
theorem cat1 (q : Fin 3) : k0_pay1 (F := Ideal) v1 v26 v29 v34 v37 v38 (ix2 p (⟨1 + q.val, by omega⟩ : Fin 16)) = v34 (ix2 p q) := by
  rw [pay1_eq]
  exact concatenate_apply_piece (t := S5000x16) (1 : Fin 2) (groups v1 v26 v29 v34 v37 v38) _ (ix2 p (⟨1 + q.val, by omega⟩ : Fin 16)) 1 (by show (1 : ℕ) < 4; omega) S5000x3 v34 rfl rfl 1 rfl (ix2 p q)
    (off_axis p q _) rfl

/-- Columns 4–8 are the third group's: the gate column times the chi columns. -/
theorem cat2 (q : Fin 5) : k0_pay1 (F := Ideal) v1 v26 v29 v34 v37 v38 (ix2 p (⟨4 + q.val, by omega⟩ : Fin 16))
    = v37 (ix2 p q) * v38 (ix2 p q) := by
  rw [pay1_eq]
  exact concatenate_apply_piece (t := S5000x16) (1 : Fin 2) (groups v1 v26 v29 v34 v37 v38) _ (ix2 p (⟨4 + q.val, by omega⟩ : Fin 16)) 2 (by show (2 : ℕ) < 4; omega) S5000x5 (mulf v37 v38) rfl rfl 4 rfl (ix2 p q)
    (off_axis p q _) rfl

/-- Columns 9–15 are the fourth group's: column 3 of the gate times the chi columns. -/
theorem cat3 (q : Fin 7) : k0_pay1 (F := Ideal) v1 v26 v29 v34 v37 v38 (ix2 p (⟨9 + q.val, by omega⟩ : Fin 16))
    = v26 (ix2 p (3 : Fin 4)) * v1 (ix2 p (⟨9 + q.val, by omega⟩ : Fin 16)) := by
  rw [pay1_eq]
  refine (concatenate_apply_piece (t := S5000x16) (1 : Fin 2) (groups v1 v26 v29 v34 v37 v38) _ (ix2 p (⟨9 + q.val, by omega⟩ : Fin 16)) 3 (by show (3 : ℕ) < 4; omega) S5000x7 _ rfl rfl 9 rfl (ix2 p q)
    (off_axis p q _) rfl).trans ?_
  show broadcastTo S5000x7 (shapeCast S5000x1 (extractStridedSlice S5000x1 ![0, 3] v26 _) _) _ (ix2 p q)
      * extractStridedSlice S5000x7 ![0, 9] v1 _ (ix2 p q) = _
  rw [broadcastTo_a1_ab_apply, shapeCast_self, slice2_axis1_eq, slice2_axis1_eq]
  rfl

end Groups

section Gate
variable (x0 : FVec Ideal S5000x128 .f32) (x1 : FVec Ideal S5000x16 .f32) (w3 : FVec Ideal S128x4 .bf16)
  (w5 : FVec Ideal S16x4 .bf16) (b7 : FVec Ideal S1x4 .f32) (p : Fin 5000)

local notation "B1" => k0_pay5 (F := Ideal) x0 x1 w3 w5 b7
local notation "OUT" => k0_pay1 (F := Ideal) x1 (k0_pay5 x0 x1 w3 w5 b7) (k0_pay6 x0 x1 w3 w5 b7) (k0_pay7 x0 x1 w3 w5 b7) (k0_pay8 x0 x1 w3 w5 b7) (k0_pay9 x1)

theorem gate0 : OUT (ix2 p (0 : Fin 16)) = B1 (ix2 p (0 : Fin 4)) * x1 (ix2 p (0 : Fin 16)) := by
  rw [cat0]
  unfold k0_pay6
  show extractStridedSlice S5000x1 ![0, 0] (k0_pay5 x0 x1 w3 w5 b7) _ (ix2 p (0 : Fin 1))
      * extractStridedSlice S5000x1 ![0, 0] x1 _ (ix2 p (0 : Fin 1)) = _
  rw [slice2_axis1_eq, slice2_axis1_eq]
  rfl

theorem gate1 (q : Fin 3) : OUT (ix2 p (⟨1 + q.val, by omega⟩ : Fin 16)) = B1 (ix2 p (1 : Fin 4)) * x1 (ix2 p (⟨1 + q.val, by omega⟩ : Fin 16)) := by
  rw [cat1]
  unfold k0_pay7
  show broadcastTo S5000x3 (shapeCast S5000x1 (extractStridedSlice S5000x1 ![0, 1] (k0_pay5 x0 x1 w3 w5 b7) _) _) _ (ix2 p q)
      * extractStridedSlice S5000x3 ![0, 1] x1 _ (ix2 p q) = _
  rw [broadcastTo_a1_ab_apply, shapeCast_self, slice2_axis1_eq, slice2_axis1_eq]
  rfl

theorem gate2 (q : Fin 5) : OUT (ix2 p (⟨4 + q.val, by omega⟩ : Fin 16)) = B1 (ix2 p (2 : Fin 4)) * x1 (ix2 p (⟨4 + q.val, by omega⟩ : Fin 16)) := by
  rw [cat2]
  unfold k0_pay8 k0_pay9
  show broadcastTo S5000x5 (shapeCast S5000x1 (extractStridedSlice S5000x1 ![0, 2] (k0_pay5 x0 x1 w3 w5 b7) _) _) _ (ix2 p q)
      * extractStridedSlice S5000x5 ![0, 4] x1 _ (ix2 p q) = _
  rw [broadcastTo_a1_ab_apply, shapeCast_self, slice2_axis1_eq, slice2_axis1_eq]
  rfl

theorem gate3 (q : Fin 7) : OUT (ix2 p (⟨9 + q.val, by omega⟩ : Fin 16)) = B1 (ix2 p (3 : Fin 4)) * x1 (ix2 p (⟨9 + q.val, by omega⟩ : Fin 16)) :=
  cat3 x1 _ _ _ _ _ p q

/-- chi_out[p, m] = b1[p, seg m] · c[p, m], for each of the sixteen columns. -/
theorem payChi_apply (m : Fin 16) :
    OUT (ix2 p m) = B1 (ix2 p (Cert.Interaction.seg m)) * x1 (ix2 p m) := by
  match m with
  | ⟨0, _⟩ => exact gate0 x0 x1 w3 w5 b7 p
  | ⟨1, _⟩ => exact gate1 x0 x1 w3 w5 b7 p 0
  | ⟨2, _⟩ => exact gate1 x0 x1 w3 w5 b7 p 1
  | ⟨3, _⟩ => exact gate1 x0 x1 w3 w5 b7 p 2
  | ⟨4, _⟩ => exact gate2 x0 x1 w3 w5 b7 p 0
  | ⟨5, _⟩ => exact gate2 x0 x1 w3 w5 b7 p 1
  | ⟨6, _⟩ => exact gate2 x0 x1 w3 w5 b7 p 2
  | ⟨7, _⟩ => exact gate2 x0 x1 w3 w5 b7 p 3
  | ⟨8, _⟩ => exact gate2 x0 x1 w3 w5 b7 p 4
  | ⟨9, _⟩ => exact gate3 x0 x1 w3 w5 b7 p 0
  | ⟨10, _⟩ => exact gate3 x0 x1 w3 w5 b7 p 1
  | ⟨11, _⟩ => exact gate3 x0 x1 w3 w5 b7 p 2
  | ⟨12, _⟩ => exact gate3 x0 x1 w3 w5 b7 p 3
  | ⟨13, _⟩ => exact gate3 x0 x1 w3 w5 b7 p 4
  | ⟨14, _⟩ => exact gate3 x0 x1 w3 w5 b7 p 5
  | ⟨15, _⟩ => exact gate3 x0 x1 w3 w5 b7 p 6
  | ⟨n + 16, h⟩ => exact absurd h (by omega)

end Gate

end Cert.KernelIdeal.Pay

end
-- ==== Proof.KernelHost.lean ====
/-
  The resident weight pieces as the region finds them, read at an entry.

  Before the launch the host slices W and b and folds the one-hot into W's last four rows:
    Wxa[k,q] = W[k,q]            Wxb[k,l] = W[k,128+l]                         (k < 128, q < 128, l < 4)
    Wca[m,q] = Σ_l oh[m,l]·W[128+l,q]      Wcb[m,l'] = Σ_l oh[m,l]·W[128+l,128+l']
    ba[0,q]  = b[q]              bb[0,l] = b[128+l],
  each then rounded to the 16-bit format where the kernel takes it so — the identity at the exact instance.
-/
import proofs.«151495_j49168785605360_2_alg».proof.Proof.Gen.KernelIdeal.Frame
import proofs.«151495_j49168785605360_2_alg».proof.Proof.LibPlainDot
import proofs.«151495_j49168785605360_2_alg».proof.Proof.Spec
import Idealize.ShloMosaic.Lib.StableHlo.Run
import Idealize.ShloMosaic.Lib.Pipeline.Value
import Idealize.ShloMosaic.Lib.ValueLayout

noncomputable section

open scoped BigOperators

namespace Cert.KernelIdeal.HostVal

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The 16×4 one-hot of the degree table as the host computes it. -/
def ohTerm : FVec Ideal S16x4 .f32 :=
  uitofp .f32 (cmpi .eq
    (broadcastInDim S16x4 ![0, 1] Facts₀.bcast_S16x1_S16x4_0_1 (broadcastInDim S16x1 ![0] Facts₀.bcast_S16_S16x1_0 (fun i => lit0 (S16.rowMajor i))))
    (broadcastInDim S16x4 ![0, 1] Facts₀.bcast_S1x4_S16x4_0_1 (iotaInDim S1x4 32 1)))

theorem ohTerm_eq : ohTerm = Cert.Interaction.oneHot lit0 := rfl

/-- The one-hot times the last four rows of W. -/
def wcTerm (W : FVec Ideal S132x132 .f32) : FVec Ideal S16x132 .f32 :=
  Host.dotGeneral dot_S16x4_S4x132_S16x132_1_0_0_1_n_n none ohTerm (extractStridedSlice S4x132 ![128, 0] W Facts₀.slices_S132x132_S4x132_128_0)

/-! ## The windows' arrays at region entry as terms of W and b -/

theorem V_v5 (c : Dev nD) : @Eq (FVec Ideal S128x128 .bf16) (V m c main_v5)
    (truncf (F := Ideal) .bf16 (extractStridedSlice S128x128 ![0, 0] (extractStridedSlice S128x132 ![0, 0] (m ((c : Thread nD τ).loc main_arg3)) Facts₀.slices_S132x132_S128x132_0_0) Facts₀.slices_S128x132_S128x128_0_0) Facts₀.bitsLt_bf16_f32) := by
  dsimp only [Gen.V]
  simp only [Gen.hostOps0, Gen.hostOps0_1, Gen.hostOps0_2, List.flatten_cons, List.flatten_nil, List.append_nil, List.cons_append, List.nil_append]
  after_results
  all_goals rfl

theorem V_v7 (c : Dev nD) : @Eq (FVec Ideal S128x4 .bf16) (V m c main_v7)
    (truncf (F := Ideal) .bf16 (extractStridedSlice S128x4 ![0, 128] (extractStridedSlice S128x132 ![0, 0] (m ((c : Thread nD τ).loc main_arg3)) Facts₀.slices_S132x132_S128x132_0_0) Facts₀.slices_S128x132_S128x4_0_128) Facts₀.bitsLt_bf16_f32) := by
  dsimp only [Gen.V]
  simp only [Gen.hostOps0, Gen.hostOps0_1, Gen.hostOps0_2, List.flatten_cons, List.flatten_nil, List.append_nil, List.cons_append, List.nil_append]
  after_results
  all_goals rfl

theorem V_v9 (c : Dev nD) : @Eq (FVec Ideal S16x128 .bf16) (V m c main_v9)
    (truncf (F := Ideal) .bf16 (extractStridedSlice S16x128 ![0, 0] (wcTerm (m ((c : Thread nD τ).loc main_arg3))) Facts₀.slices_S16x132_S16x128_0_0) Facts₀.bitsLt_bf16_f32) := by
  dsimp only [Gen.V]
  simp only [Gen.hostOps0, Gen.hostOps0_1, Gen.hostOps0_2, List.flatten_cons, List.flatten_nil, List.append_nil, List.cons_append, List.nil_append]
  after_results
  all_goals rfl

theorem V_v11 (c : Dev nD) : @Eq (FVec Ideal S16x4 .bf16) (V m c main_v11)
    (truncf (F := Ideal) .bf16 (extractStridedSlice S16x4 ![0, 128] (wcTerm (m ((c : Thread nD τ).loc main_arg3))) Facts₀.slices_S16x132_S16x4_0_128) Facts₀.bitsLt_bf16_f32) := by
  dsimp only [Gen.V]
  simp only [Gen.hostOps0, Gen.hostOps0_1, Gen.hostOps0_2, List.flatten_cons, List.flatten_nil, List.append_nil, List.cons_append, List.nil_append]
  after_results
  all_goals rfl

theorem V_v13 (c : Dev nD) : @Eq (FVec Ideal S1x128 .f32) (V m c main_v13)
    (shapeCast S1x128 (extractStridedSlice S128 ![0] (m ((c : Thread nD τ).loc main_arg4)) Facts₀.slices_S132_S128_0) Facts₀.shapeCasts_S128_S1x128) := by
  dsimp only [Gen.V]
  simp only [Gen.hostOps0, Gen.hostOps0_1, Gen.hostOps0_2, List.flatten_cons, List.flatten_nil, List.append_nil, List.cons_append, List.nil_append]
  after_results
  all_goals rfl

theorem V_v15 (c : Dev nD) : @Eq (FVec Ideal S1x4 .f32) (V m c main_v15)
    (shapeCast S1x4 (extractStridedSlice S4 ![128] (m ((c : Thread nD τ).loc main_arg4)) Facts₀.slices_S132_S4_128) Facts₀.shapeCasts_S4_S1x4) := by
  dsimp only [Gen.V]
  simp only [Gen.hostOps0, Gen.hostOps0_1, Gen.hostOps0_2, List.flatten_cons, List.flatten_nil, List.append_nil, List.cons_append, List.nil_append]
  after_results
  all_goals rfl

/-! ## The same arrays read at an entry -/

/-- W and b as launched, on core c. -/
abbrev Warr (c : Dev nD) : FVec Ideal S132x132 .f32 := m ((c : Thread nD τ).loc main_arg3)
abbrev barr (c : Dev nD) : FVec Ideal S132 .f32 := m ((c : Thread nD τ).loc main_arg4)
/-- The one-hot of the program's degree table. -/
abbrev OH : FVec Ideal S16x4 .f32 := Cert.Interaction.oneHot lit0

section Read
variable (c : Dev nD)

/-- Wxa[k,q] = W[k,q]. -/
theorem Wxa_apply (k : Fin 128) (q : Fin 128) :
    (V m c main_v5 : FVec Ideal S128x128 .bf16) (ix2 k q) = (Warr m c) (ix2 ⟨k.val, by omega⟩ ⟨q.val, by omega⟩) := by
  rw [V_v5]
  exact (slice2_axis1_apply 0 (extractStridedSlice S128x132 ![0, 0] (Warr m c) Facts₀.slices_S132x132_S128x132_0_0) Facts₀.slices_S128x132_S128x128_0_0 k q ⟨q.val, by omega⟩ (Nat.zero_add _).symm).trans
    (slice2_axis0_apply 0 (Warr m c) Facts₀.slices_S132x132_S128x132_0_0 k ⟨q.val, by omega⟩ ⟨k.val, by omega⟩ (Nat.zero_add _).symm)

/-- Wxb[k,l] = W[k,128+l]. -/
theorem Wxb_apply (k : Fin 128) (l : Fin 4) :
    (V m c main_v7 : FVec Ideal S128x4 .bf16) (ix2 k l) = (Warr m c) (ix2 ⟨k.val, by omega⟩ ⟨128 + l.val, by omega⟩) := by
  rw [V_v7]
  exact (slice2_axis1_apply 128 (extractStridedSlice S128x132 ![0, 0] (Warr m c) Facts₀.slices_S132x132_S128x132_0_0) Facts₀.slices_S128x132_S128x4_0_128 k l ⟨128 + l.val, by omega⟩ rfl).trans
    (slice2_axis0_apply 0 (Warr m c) Facts₀.slices_S132x132_S128x132_0_0 k ⟨128 + l.val, by omega⟩ ⟨k.val, by omega⟩ (Nat.zero_add _).symm)

/-- The folded rows: (oh · W[128:,:])[mm,j] = Σ_l oh[mm,l]·W[128+l,j]. -/
theorem wc_apply (mm : Fin 16) (j : Fin 132) :
    wcTerm (Warr m c) (ix2 mm j) = Cert.Interaction.wfold OH (Warr m c) mm j := by
  unfold wcTerm
  refine (PlainDot.dotGeneral_apply dot_S16x4_S4x132_S16x132_1_0_0_1_n_n none .single rfl rfl (fun _ _ => rfl) (fun _ _ => rfl) (fun _ _ => rfl) (fun _ _ => rfl)
    ohTerm (extractStridedSlice S4x132 ![128, 0] (Warr m c) Facts₀.slices_S132x132_S4x132_128_0) mm j).trans ?_
  unfold Cert.Interaction.wfold
  refine Finset.sum_congr rfl fun l _ => ?_
  exact congrArg (ohTerm (ix2 mm l) * ·) (slice2_axis0_apply 128 (Warr m c) Facts₀.slices_S132x132_S4x132_128_0 l j ⟨128 + l.val, by omega⟩ rfl)

/-- Wca[mm,q] = Σ_l oh[mm,l]·W[128+l,q]. -/
theorem Wca_apply (mm : Fin 16) (q : Fin 128) :
    (V m c main_v9 : FVec Ideal S16x128 .bf16) (ix2 mm q) = Cert.Interaction.wfold OH (Warr m c) mm ⟨q.val, by omega⟩ := by
  rw [V_v9]
  exact (slice2_axis1_apply 0 (wcTerm (Warr m c)) Facts₀.slices_S16x132_S16x128_0_0 mm q ⟨q.val, by omega⟩ (Nat.zero_add _).symm).trans
    (wc_apply m c mm ⟨q.val, by omega⟩)

/-- Wcb[mm,l] = Σ_l' oh[mm,l']·W[128+l',128+l]. -/
theorem Wcb_apply (mm : Fin 16) (l : Fin 4) :
    (V m c main_v11 : FVec Ideal S16x4 .bf16) (ix2 mm l) = Cert.Interaction.wfold OH (Warr m c) mm ⟨128 + l.val, by omega⟩ := by
  rw [V_v11]
  exact (slice2_axis1_apply 128 (wcTerm (Warr m c)) Facts₀.slices_S16x132_S16x4_0_128 mm l ⟨128 + l.val, by omega⟩ rfl).trans
    (wc_apply m c mm ⟨128 + l.val, by omega⟩)

/-- ba[0,q] = b[q]. -/
theorem ba_apply (q : Fin 128) :
    (V m c main_v13 : FVec Ideal S1x128 .f32) (ix2 (0 : Fin 1) q) = (barr m c) (ix1 ⟨q.val, by omega⟩) := by
  rw [V_v13]
  refine (shapeCast_a_1a_apply _ Facts₀.shapeCasts_S128_S1x128 0 q).trans ?_
  exact extractStridedSlice_apply _ _ _ _ (ix1 ⟨q.val, by omega⟩) (fun a => by
    match a with
    | ⟨0, _⟩ => exact (Nat.zero_add _).symm)

/-- bb[0,l] = b[128+l]. -/
theorem bb_apply (l : Fin 4) :
    (V m c main_v15 : FVec Ideal S1x4 .f32) (ix2 (0 : Fin 1) l) = (barr m c) (ix1 ⟨128 + l.val, by omega⟩) := by
  rw [V_v15]
  refine (shapeCast_a_1a_apply _ Facts₀.shapeCasts_S4_S1x4 0 l).trans ?_
  exact extractStridedSlice_apply _ _ _ _ (ix1 ⟨128 + l.val, by omega⟩) (fun a => by
    match a with
    | ⟨0, _⟩ => rfl)

end Read

end Cert.KernelIdeal.HostVal

end
-- ==== Proof.KernelValue.lean ====
/-
  From blocks to arrays: what the whole run leaves in the two result arrays.

  The grid has 200 points; point t takes rows 5000·t … 5000·t + 4999 of x and chi, every point sees the whole of the
  six resident weight pieces, and writes back rows 5000·t … 5000·t + 4999 of the two results. So what point t writes is
  its block of ONE whole-array function — the interaction block in the folded arrangement — and the 200 row blocks
  cover the arrays.
-/
import proofs.«151495_j49168785605360_2_alg».proof.Proof.Gen.KernelIdeal.Value
import proofs.«151495_j49168785605360_2_alg».proof.Proof.KernelPay
import proofs.«151495_j49168785605360_2_alg».proof.Proof.KernelHost
import proofs.«151495_j49168785605360_2_alg».proof.Proof.Spec
import Idealize.ShloMosaic.Lib.Pipeline.Value

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The streamed windows (x, chi and the two results) sit at row block t, column block 0. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The resident windows are always their whole arrays. -/
theorem idx_res : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem row_lt (t : Fin cfg0.N) (p : Fin 5000) : t.val * 5000 + p.val < 1000000 := by
  have hN : cfg0.N = 200 := N_0
  have := t.isLt
  have := p.isLt
  omega

/-! ## Each window's block at point t, read at an entry -/

/-- x and chi as launched, on core c. -/
abbrev Xarr (c : Dev nD) : FVec Ideal S1000000x128 .f32 := m ((c : Thread nD τ).loc main_arg0)
abbrev Carr (c : Dev nD) : FVec Ideal S1000000x16 .f32 := m ((c : Thread nD τ).loc main_arg1)

section Blocks
variable (c : Dev nD) (t : Fin cfg0.N)
open Cert.KernelIdeal.HostVal (Warr barr OH)

theorem blkX (p : Fin 5000) (k : Fin 128) :
    (iblk m c 0 t : FVec Ideal S5000x128 .f32) (ix2 p k) = Xarr m c (ix2 ⟨t.val * 5000 + p.val, row_lt t p⟩ k) := by
  obtain ⟨e0, e1, -⟩ := idx_rows t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem blkChi (p : Fin 5000) (k : Fin 16) :
    (iblk m c 1 t : FVec Ideal S5000x16 .f32) (ix2 p k) = Carr m c (ix2 ⟨t.val * 5000 + p.val, row_lt t p⟩ k) := by
  obtain ⟨-, -, e0, e1, -⟩ := idx_rows t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 16 + 1 * k.val = k.val; rw [e1]; omega

theorem blkWxa (k : Fin 128) (q : Fin 128) :
    (iblk m c 2 t : FVec Ideal S128x128 .bf16) (ix2 k q) = Warr m c (ix2 ⟨k.val, by omega⟩ ⟨q.val, by omega⟩) := by
  obtain ⟨e0, e1, -⟩ := idx_res t
  unfold iblk
  rw [View.read_apply]
  refine (congrArg (V m c main_v5 : FVec Ideal S128x128 .bf16) (?_ : _ = ix2 k q)).trans (HostVal.Wxa_apply m c k q)
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem blkWxb (k : Fin 128) (l : Fin 4) :
    (iblk m c 3 t : FVec Ideal S128x4 .bf16) (ix2 k l) = Warr m c (ix2 ⟨k.val, by omega⟩ ⟨128 + l.val, by omega⟩) := by
  obtain ⟨-, -, e0, e1, -⟩ := idx_res t
  unfold iblk
  rw [View.read_apply]
  refine (congrArg (V m c main_v7 : FVec Ideal S128x4 .bf16) (?_ : _ = ix2 k l)).trans (HostVal.Wxb_apply m c k l)
  funext a
  apply Fin.ext
  match a with
  | ⟨0, _⟩ => show win0_3.index t (0 : Fin 2) * 128 + 1 * k.val = k.val; rw [e0]; omega
  | ⟨1, _⟩ => show win0_3.index t (1 : Fin 2) * 4 + 1 * l.val = l.val; rw [e1]; omega

theorem blkWca (mm : Fin 16) (q : Fin 128) :
    (iblk m c 4 t : FVec Ideal S16x128 .bf16) (ix2 mm q) = Cert.Interaction.wfold OH (Warr m c) mm ⟨q.val, by omega⟩ := by
  obtain ⟨-, -, -, -, e0, e1, -⟩ := idx_res t
  unfold iblk
  rw [View.read_apply]
  refine (congrArg (V m c main_v9 : FVec Ideal S16x128 .bf16) (?_ : _ = ix2 mm q)).trans (HostVal.Wca_apply m c mm q)
  funext a
  apply Fin.ext
  match a with
  | ⟨0, _⟩ => show win0_4.index t (0 : Fin 2) * 16 + 1 * mm.val = mm.val; rw [e0]; omega
  | ⟨1, _⟩ => show win0_4.index t (1 : Fin 2) * 128 + 1 * q.val = q.val; rw [e1]; omega

theorem blkWcb (mm : Fin 16) (l : Fin 4) :
    (iblk m c 5 t : FVec Ideal S16x4 .bf16) (ix2 mm l) = Cert.Interaction.wfold OH (Warr m c) mm ⟨128 + l.val, by omega⟩ := by
  obtain ⟨-, -, -, -, -, -, e0, e1, -⟩ := idx_res t
  unfold iblk
  rw [View.read_apply]
  refine (congrArg (V m c main_v11 : FVec Ideal S16x4 .bf16) (?_ : _ = ix2 mm l)).trans (HostVal.Wcb_apply m c mm l)
  funext a
  apply Fin.ext
  match a with
  | ⟨0, _⟩ => show win0_5.index t (0 : Fin 2) * 16 + 1 * mm.val = mm.val; rw [e0]; omega
  | ⟨1, _⟩ => show win0_5.index t (1 : Fin 2) * 4 + 1 * l.val = l.val; rw [e1]; omega

theorem blkBa (q : Fin 128) :
    (iblk m c 6 t : FVec Ideal S1x128 .f32) (ix2 (0 : Fin 1) q) = barr m c (ix1 ⟨q.val, by omega⟩) := by
  obtain ⟨-, -, -, -, -, -, -, -, e0, e1, -⟩ := idx_res t
  unfold iblk
  rw [View.read_apply]
  refine (congrArg (V m c main_v13 : FVec Ideal S1x128 .f32) (?_ : _ = ix2 (0 : Fin 1) q)).trans (HostVal.ba_apply m c q)
  funext a
  apply Fin.ext
  match a with
  | ⟨0, _⟩ => show win0_6.index t (0 : Fin 2) * 1 + 1 * 0 = 0; rw [e0]
  | ⟨1, _⟩ => show win0_6.index t (1 : Fin 2) * 128 + 1 * q.val = q.val; rw [e1]; omega

theorem blkBb (l : Fin 4) :
    (iblk m c 7 t : FVec Ideal S1x4 .f32) (ix2 (0 : Fin 1) l) = barr m c (ix1 ⟨128 + l.val, by omega⟩) := by
  obtain ⟨-, -, -, -, -, -, -, -, -, -, e0, e1⟩ := idx_res t
  unfold iblk
  rw [View.read_apply]
  refine (congrArg (V m c main_v15 : FVec Ideal S1x4 .f32) (?_ : _ = ix2 (0 : Fin 1) l)).trans (HostVal.bb_apply m c l)
  funext a
  apply Fin.ext
  match a with
  | ⟨0, _⟩ => show win0_7.index t (0 : Fin 2) * 1 + 1 * 0 = 0; rw [e0]
  | ⟨1, _⟩ => show win0_7.index t (1 : Fin 2) * 4 + 1 * l.val = l.val; rw [e1]; omega

end Blocks

/-! ## The two whole-array functions -/

/-- Result 0 as one function of the argument arrays (folded arrangement). -/
def GA (c : Dev nD) : S1000000x128.Idx → EReal :=
  Cert.Interaction.outAFold (m ((c : Thread nD τ).loc main_arg0)) (m ((c : Thread nD τ).loc main_arg1)) (Cert.Interaction.oneHot lit0)
    (m ((c : Thread nD τ).loc main_arg3)) (m ((c : Thread nD τ).loc main_arg4))

/-- Result 1 as one function of the argument arrays (folded arrangement). -/
def GChi (c : Dev nD) : S1000000x16.Idx → EReal :=
  Cert.Interaction.outChiFold (m ((c : Thread nD τ).loc main_arg0)) (m ((c : Thread nD τ).loc main_arg1)) (Cert.Interaction.oneHot lit0)
    (m ((c : Thread nD τ).loc main_arg3)) (m ((c : Thread nD τ).loc main_arg4))

/-! ## What point t writes back is its block of those functions -/

theorem flushed8_eq (c : Dev nD) (t : Fin cfg0.N) :
    (dats m 0 c).flushed 8 t = ((cfg0.win 8).blk t).view.read (Elt Ideal) (GA m c) := by
  rw [Cert.KernelIdeal.Value.flushed8]
  unfold out0_8
  rw [View.canon_unit_zero hz]
  simp only [View.ld_unit_zero (S := S5000x128) hz, View.ld_unit_zero (S := S5000x16) hz, View.ld_unit_zero (S := S128x128) hz,
    View.ld_unit_zero (S := S16x128) hz, View.ld_unit_zero (S := S1x128) hz]
  funext y
  obtain ⟨p, q, rfl⟩ : ∃ (p : Fin 5000) (q : Fin 128), y = ix2 p q := ⟨y 0, y 1, eq_ix2 (n0 := 5000) (n1 := 128) y⟩
  obtain ⟨-, -, -, -, e0, e1, -⟩ := idx_rows t
  show k0_pay4 (F := Ideal) (iblk m c 0 t) (iblk m c 1 t) (iblk m c 2 t) (iblk m c 4 t) (iblk m c 6 t) (ix2 p q)
    = GA m c (((cfg0.win 8).blk t).view.emb (ix2 p q))
  have hemb : ((cfg0.win 8).blk t).view.emb (ix2 p q) = (ix2 ⟨t.val * 5000 + p.val, row_lt t p⟩ q : S1000000x128.Idx) := by
    funext a
    apply Fin.ext
    match a with
    | ⟨0, _⟩ => show win0_8.index t (0 : Fin 2) * 5000 + 1 * p.val = t.val * 5000 + p.val; rw [e0]; omega
    | ⟨1, _⟩ => show win0_8.index t (1 : Fin 2) * 128 + 1 * q.val = q.val; rw [e1]; omega
  rw [hemb]
  refine (Pay.payA_apply (iblk m c 0 t) (iblk m c 1 t) (iblk m c 2 t) (iblk m c 4 t) (iblk m c 6 t) p q).trans ?_
  simp only [blkX m c t, blkChi m c t, blkWxa m c t, blkWca m c t, blkBa m c t]
  rfl

theorem flushed9_eq (c : Dev nD) (t : Fin cfg0.N) :
    (dats m 0 c).flushed 9 t = ((cfg0.win 9).blk t).view.read (Elt Ideal) (GChi m c) := by
  rw [Cert.KernelIdeal.Value.flushed9]
  unfold out0_9
  rw [View.canon_unit_zero hz]
  simp only [View.ld_unit_zero (S := S5000x128) hz, View.ld_unit_zero (S := S5000x16) hz, View.ld_unit_zero (S := S128x4) hz,
    View.ld_unit_zero (S := S16x4) hz, View.ld_unit_zero (S := S1x4) hz]
  funext y
  obtain ⟨p, mm, rfl⟩ : ∃ (p : Fin 5000) (mm : Fin 16), y = ix2 p mm := ⟨y 0, y 1, eq_ix2 (n0 := 5000) (n1 := 16) y⟩
  obtain ⟨-, -, -, -, -, -, e0, e1⟩ := idx_rows t
  show k0_pay1 (F := Ideal) (iblk m c 1 t) (k0_pay5 (iblk m c 0 t) (iblk m c 1 t) (iblk m c 3 t) (iblk m c 5 t) (iblk m c 7 t))
      (k0_pay6 (iblk m c 0 t) (iblk m c 1 t) (iblk m c 3 t) (iblk m c 5 t) (iblk m c 7 t))
      (k0_pay7 (iblk m c 0 t) (iblk m c 1 t) (iblk m c 3 t) (iblk m c 5 t) (iblk m c 7 t))
      (k0_pay8 (iblk m c 0 t) (iblk m c 1 t) (iblk m c 3 t) (iblk m c 5 t) (iblk m c 7 t))
      (k0_pay9 (iblk m c 1 t)) (ix2 p mm)
    = GChi m c (((cfg0.win 9).blk t).view.emb (ix2 p mm))
  have hemb : ((cfg0.win 9).blk t).view.emb (ix2 p mm) = (ix2 ⟨t.val * 5000 + p.val, row_lt t p⟩ mm : S1000000x16.Idx) := by
    funext a
    apply Fin.ext
    match a with
    | ⟨0, _⟩ => show win0_9.index t (0 : Fin 2) * 5000 + 1 * p.val = t.val * 5000 + p.val; rw [e0]; omega
    | ⟨1, _⟩ => show win0_9.index t (1 : Fin 2) * 16 + 1 * mm.val = mm.val; rw [e1]; omega
  rw [hemb]
  refine (Pay.payChi_apply (iblk m c 0 t) (iblk m c 1 t) (iblk m c 3 t) (iblk m c 5 t) (iblk m c 7 t) p mm).trans ?_
  rw [Pay.payB_apply]
  simp only [blkX m c t, blkChi m c t, blkWxb m c t, blkWcb m c t, blkBb m c t]
  rfl

/-! ## The row blocks cover the arrays -/

theorem mem_blk8 (t : Fin cfg0.N) (i : S1000000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v16_0).slice (win0_8.rect t)).set ↔ _
  rw [View.set_slice_whole, Rect.mem_set_unit]
  exact Iff.rfl

theorem mem_blk9 (t : Fin cfg0.N) (i : S1000000x16.Idx) :
    i ∈ ((cfg0.win 9).blk t).view.set ↔ ∀ a : Fin 2, win0_9.index t a * S5000x16.size a ≤ (i a).val ∧ (i a).val < win0_9.index t a * S5000x16.size a + S5000x16.size a := by
  show i ∈ ((View.whole main_v16_1).slice (win0_9.rect t)).set ↔ _
  rw [View.set_slice_whole, Rect.mem_set_unit]
  exact Iff.rfl

/-- Row r lies in the block of point r / 5000. -/
theorem cover8 (i : S1000000x128.Idx) : ∃ t : Fin cfg0.N, (cfg0.win 8).flush t = true ∧ i ∈ ((cfg0.win 8).blk t).view.set := by
  have hN : cfg0.N = 200 := N_0
  have h0 : (i 0).val < 1000000 := (i 0).isLt
  have h1 : (i 1).val < 128 := (i 1).isLt
  have ht : (i 0).val / 5000 < cfg0.N := by omega
  refine ⟨⟨(i 0).val / 5000, ht⟩, flush0_8 _, ?_⟩
  rw [mem_blk8]
  obtain ⟨-, -, -, -, e0, e1, -⟩ := idx_rows ⟨(i 0).val / 5000, ht⟩
  intro a
  match a with
  | ⟨0, _⟩ =>
    show win0_8.index ⟨(i 0).val / 5000, ht⟩ (0 : Fin 2) * 5000 ≤ (i 0).val ∧ (i 0).val < win0_8.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_8.index ⟨(i 0).val / 5000, ht⟩ (1 : Fin 2) * 128 ≤ (i 1).val ∧ (i 1).val < win0_8.index ⟨(i 0).val / 5000, ht⟩ (1 : Fin 2) * 128 + 128
    rw [e1]
    omega

theorem cover9 (i : S1000000x16.Idx) : ∃ t : Fin cfg0.N, (cfg0.win 9).flush t = true ∧ i ∈ ((cfg0.win 9).blk t).view.set := by
  have hN : cfg0.N = 200 := N_0
  have h0 : (i 0).val < 1000000 := (i 0).isLt
  have h1 : (i 1).val < 16 := (i 1).isLt
  have ht : (i 0).val / 5000 < cfg0.N := by omega
  refine ⟨⟨(i 0).val / 5000, ht⟩, flush0_9 _, ?_⟩
  rw [mem_blk9]
  obtain ⟨-, -, -, -, -, -, e0, e1⟩ := idx_rows ⟨(i 0).val / 5000, ht⟩
  intro a
  match a with
  | ⟨0, _⟩ =>
    show win0_9.index ⟨(i 0).val / 5000, ht⟩ (0 : Fin 2) * 5000 ≤ (i 0).val ∧ (i 0).val < win0_9.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_9.index ⟨(i 0).val / 5000, ht⟩ (1 : Fin 2) * 16 ≤ (i 1).val ∧ (i 1).val < win0_9.index ⟨(i 0).val / 5000, ht⟩ (1 : Fin 2) * 16 + 16
    rw [e1]
    omega

/-! ## The arrays after the run, and the run -/

theorem final8 (c : Dev nD) : (dats m 0 c).arrAt 8 cfg0.N = GA m c :=
  (dats m 0 c).arrAt_eq_of_cover 8 (GA m c) (fun t _ => flushed8_eq m c t) cover8

theorem final9 (c : Dev nD) : (dats m 0 c).arrAt 9 cfg0.N = GChi m c :=
  (dats m 0 c).arrAt_eq_of_cover 9 (GChi m c) (fun t _ => flushed9_eq m c t) cover9

/-- Every weakly fair execution of the kernel's program ends with the two result arrays at those functions of the
    argument arrays, the arguments unchanged. -/
theorem run : θ_run defs (onTc (τ := τ) (main (F := Ideal))) ⟨m, fun _ => 0, ρ⟩ fun r => ∀ c : Dev nD,
      r.2.mem ((c : Thread nD τ).loc main_v16_0) = GA m c
      ∧ r.2.mem ((c : Thread nD τ).loc main_v16_1) = GChi m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final8 m c), (h c).2.1.trans (final9 m c), (h c).2.2⟩)
    (Cert.KernelIdeal.Value.run_blocks m ρ)

end Cert.KernelIdeal.Whole

end
-- ==== Proof.RefRun.lean ====
/- The reference program's @main as the list of its 26 host operations — the degree table, the six operations
   of the outlined one-hot function written out at its call site, and the 19 that follow — and its run read
   back: every weakly fair execution terminates with each result buffer at a pure term of the argument arrays,
   the arguments unchanged. The pure terms are named (`oneHotTerm`, `hidTerm`, `out0Term`, `out1Term`) so that a
   value proof can rewrite them index by index without opening the chain of operations. -/
import proofs.«151495_j49168785605360_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 26 operations, in order: the degree table; the one-hot function's six (the table as a column, the
    iota along the four classes, both broadcast to 16x4, their comparison, its conversion to a float); then
    @main's own 19. -/
abbrev ops : List (HloOp τ sig (Elt F)) :=
  [ nullary main_c (fun i => lit0 (S16.rowMajor i)),
    TRef.unary (TRef.of main_c : TRef sig ⟨S16, .i32⟩) main_call0.v0 (broadcastInDim S16x1 ![0] bcast_S16_S16x1_0),
    TRef.nullary main_call0.v1 (iotaInDim S1x4 32 1),
    TRef.unary main_call0.v0 main_call0.v2 (broadcastInDim S16x4 ![0, 1] bcast_S16x1_S16x4_0_1),
    TRef.unary main_call0.v1 main_call0.v3 (broadcastInDim S16x4 ![0, 1] bcast_S1x4_S16x4_0_1),
    TRef.binary main_call0.v2 main_call0.v3 main_call0.v4 (cmpi .eq),
    TRef.unary main_call0.v4 main_call0.v5 (uitofp .f32),
    binary main_arg1 main_arg1 main_v1 (mulf : (⟨S1000000x16, .f32⟩ : BufTy).Contents (Elt F) → (⟨S1000000x16, .f32⟩ : BufTy).Contents (Elt F) → (⟨S1000000x16, .f32⟩ : BufTy).Contents (Elt F)),
    binary main_v1 main_v0 main_v2 ((fun l r => Host.dotGeneral dot_S1000000x16_S16x4_S1000000x4_1_0_0_1_n_n none l r) : (⟨S1000000x16, .f32⟩ : BufTy).Contents (Elt F) → (⟨S16x4, .f32⟩ : BufTy).Contents (Elt F) → (⟨S1000000x4, .f32⟩ : BufTy).Contents (Elt F)),
    binary main_arg0 main_v2 main_v3 ((fun a b => concatenate S1000000x132 1 [⟨S1000000x128, a⟩, ⟨S1000000x4, b⟩] concatenates_S1000000x128_S1000000x4_S1000000x132_d1) : (⟨S1000000x128, .f32⟩ : BufTy).Contents (Elt F) → (⟨S1000000x4, .f32⟩ : BufTy).Contents (Elt F) → (⟨S1000000x132, .f32⟩ : BufTy).Contents (Elt F)),
    binary main_v3 main_arg3 main_v4 ((fun l r => Host.dotGeneral dot_S1000000x132_S132x132_S1000000x132_1_0_0_1_n_n none l r) : (⟨S1000000x132, .f32⟩ : BufTy).Contents (Elt F) → (⟨S132x132, .f32⟩ : BufTy).Contents (Elt F) → (⟨S1000000x132, .f32⟩ : BufTy).Contents (Elt F)),
    unary main_arg4 main_v5 (broadcastInDim S1x132 ![1] bcast_S132_S1x132_1 : (⟨S132, .f32⟩ : BufTy).Contents (Elt F) → (⟨S1x132, .f32⟩ : BufTy).Contents (Elt F)),
    unary main_v5 main_v6 (broadcastInDim S1000000x132 ![0, 1] bcast_S1x132_S1000000x132_0_1 : (⟨S1x132, .f32⟩ : BufTy).Contents (Elt F) → (⟨S1000000x132, .f32⟩ : BufTy).Contents (Elt F)),
    binary main_v4 main_v6 main_v7 (addf : (⟨S1000000x132, .f32⟩ : BufTy).Contents (Elt F) → (⟨S1000000x132, .f32⟩ : BufTy).Contents (Elt F) → (⟨S1000000x132, .f32⟩ : BufTy).Contents (Elt F)),
    unary main_v7 main_v8 ((extractStridedSlice S1000000x128 ![0, 0] · slices_S1000000x132_S1000000x128_0_0) : (⟨S1000000x132, .f32⟩ : BufTy).Contents (Elt F) → (⟨S1000000x128, .f32⟩ : BufTy).Contents (Elt F)),
    unary main_v7 main_v9 ((extractStridedSlice S1000000x4 ![0, 128] · slices_S1000000x132_S1000000x4_0_128) : (⟨S1000000x132, .f32⟩ : BufTy).Contents (Elt F) → (⟨S1000000x4, .f32⟩ : BufTy).Contents (Elt F)),
    nullary main_c_0 (constantI S_ 32 0#32),
    unary main_c_0 main_v10 (broadcastInDim S16 ![] bcast_S_S16 : (⟨S_, .i32⟩ : BufTy).Contents (Elt F) → (⟨S16, .i32⟩ : BufTy).Contents (Elt F)),
    binary main_c main_v10 main_v11 (cmpi .slt : (⟨S16, .i32⟩ : BufTy).Contents (Elt F) → (⟨S16, .i32⟩ : BufTy).Contents (Elt F) → (⟨S16, .i1⟩ : BufTy).Contents (Elt F)),
    nullary main_c_1 (constantI S_ 32 4#32),
    unary main_c_1 main_v12 (broadcastInDim S16 ![] bcast_S_S16 : (⟨S_, .i32⟩ : BufTy).Contents (Elt F) → (⟨S16, .i32⟩ : BufTy).Contents (Elt F)),
    binary main_c main_v12 main_v13 (addi : (⟨S16, .i32⟩ : BufTy).Contents (Elt F) → (⟨S16, .i32⟩ : BufTy).Contents (Elt F) → (⟨S16, .i32⟩ : BufTy).Contents (Elt F)),
    ternary main_v11 main_v13 main_c main_v14 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v14 main_v15 (broadcastInDim S16x1 ![0] bcast_S16_S16x1_0 : (⟨S16, .i32⟩ : BufTy).Contents (Elt F) → (⟨S16x1, .i32⟩ : BufTy).Contents (Elt F)),
    binary main_v9 main_v15 main_v16 ((fun x i => Host.gather gather_S1000000x4_S16x1_S1000000x16_0_1_n_n_1_1_10000001 x i) : (⟨S1000000x4, .f32⟩ : BufTy).Contents (Elt F) → (⟨S16x1, .i32⟩ : BufTy).Contents (Elt F) → (⟨S1000000x16, .f32⟩ : BufTy).Contents (Elt F)),
    binary main_v16 main_arg1 main_v17 (mulf : (⟨S1000000x16, .f32⟩ : BufTy).Contents (Elt F) → (⟨S1000000x16, .f32⟩ : BufTy).Contents (Elt F) → (⟨S1000000x16, .f32⟩ : BufTy).Contents (Elt F)) ]

-- twenty-six binds re-associated after the function's definition is unfolded at its call
set_option maxRecDepth 1024 in
/-- @main is that straight line: the one-hot function's definition unfolded at its call and the call's record at
    its fields, both sides are one chain of host steps once sequencing is reassociated. -/
theorem main_eq (c : Dev nD) : main (F := F) c = seq ops := by
  simp only [main, fn_one_hot.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., binary_bufs_sub ..,
    unary_bufs_sub .., binary_bufs_sub .., binary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub ..⟩

/-- For any float values, from any memory with zero counters: every weakly fair execution of @main terminates,
    and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results as pure terms of the argument arrays -/

/-- The degree table as a vector of sixteen words. -/
def segTable : IVec S16 32 := fun i => lit0 (S16.rowMajor i)

/-- The one-hot of the degree table, 16x4: the table as a column and the iota along the four classes, both broadcast
    to 16x4, compared for equality, the bit converted to a float. -/
def oneHotTerm : FVec F S16x4 .f32 :=
  uitofp .f32 (cmpi .eq
    (broadcastInDim S16x4 ![0, 1] bcast_S16x1_S16x4_0_1 (broadcastInDim S16x1 ![0] bcast_S16_S16x1_0 segTable))
    (broadcastInDim S16x4 ![0, 1] bcast_S1x4_S16x4_0_1 (iotaInDim S1x4 32 1)))

/-- The hidden array, 1000000x132: the features and the per-class sums of squares side by side, times the weights,
    plus the bias broadcast along the rows. -/
def hidTerm (x : FVec F S1000000x128 .f32) (chi : FVec F S1000000x16 .f32) (W : FVec F S132x132 .f32) (b : FVec F S132 .f32) :
    FVec F S1000000x132 .f32 :=
  addf
    (Host.dotGeneral dot_S1000000x132_S132x132_S1000000x132_1_0_0_1_n_n none
      (concatenate S1000000x132 1
        [⟨S1000000x128, x⟩,
         ⟨S1000000x4, Host.dotGeneral dot_S1000000x16_S16x4_S1000000x4_1_0_0_1_n_n none (mulf chi chi) oneHotTerm⟩]
        concatenates_S1000000x128_S1000000x4_S1000000x132_d1)
      W)
    (broadcastInDim S1000000x132 ![0, 1] bcast_S1x132_S1000000x132_0_1 (broadcastInDim S1x132 ![1] bcast_S132_S1x132_1 b))

/-- The gather's start indices, 16x1: the degree table with a negative entry moved up by four (none is), as a column. -/
def segIdxTerm : IVec S16x1 32 :=
  broadcastInDim S16x1 ![0] bcast_S16_S16x1_0
    (select (cmpi .slt segTable (broadcastInDim S16 ![] bcast_S_S16 (constantI S_ 32 0#32)))
      (addi segTable (broadcastInDim S16 ![] bcast_S_S16 (constantI S_ 32 4#32)))
      segTable)

/-- The first result: the hidden array's first 128 columns. -/
def out0Term (x : FVec F S1000000x128 .f32) (chi : FVec F S1000000x16 .f32) (W : FVec F S132x132 .f32) (b : FVec F S132 .f32) :
    FVec F S1000000x128 .f32 :=
  extractStridedSlice S1000000x128 ![0, 0] (hidTerm x chi W b) slices_S1000000x132_S1000000x128_0_0

/-- The second result: the hidden array's last four columns gathered at each column's class, times the input. -/
def out1Term (x : FVec F S1000000x128 .f32) (chi : FVec F S1000000x16 .f32) (W : FVec F S132x132 .f32) (b : FVec F S132 .f32) :
    FVec F S1000000x16 .f32 :=
  mulf
    (Host.gather gather_S1000000x4_S16x1_S1000000x16_0_1_n_n_1_1_10000001
      (extractStridedSlice S1000000x4 ![0, 128] (hidTerm x chi W b) slices_S1000000x132_S1000000x4_0_128) segIdxTerm)
    chi

/-! ## The fold read at the results and the arguments

The fold unrolled, each operation's result decides whether the buffer read is the one it writes, and the typed
references' casts are the identity at these literal references: all of it by computation. The contraction, the
concatenation and the gather stay folded meanwhile (the equations never look inside them). -/

section ReadBack

attribute [local irreducible] Host.gather concatenate

set_option maxRecDepth 8192 in
theorem after_v8 (V : Valuation τ sig (Elt F)) :
    after ops V (main_v8 : DevRef τ sig)
      = out0Term (V (main_arg0 : DevRef τ sig)) (V (main_arg1 : DevRef τ sig)) (V (main_arg3 : DevRef τ sig))
          (V (main_arg4 : DevRef τ sig)) := by
  simp only [after_cons, after_nil]
  rfl

set_option maxRecDepth 8192 in
theorem after_v17 (V : Valuation τ sig (Elt F)) :
    after ops V (main_v17 : DevRef τ sig)
      = out1Term (V (main_arg0 : DevRef τ sig)) (V (main_arg1 : DevRef τ sig)) (V (main_arg3 : DevRef τ sig))
          (V (main_arg4 : DevRef τ sig)) := by
  simp only [after_cons, after_nil]
  rfl

theorem after_arg0 (V : Valuation τ sig (Elt F)) :
    after ops V (main_arg0 : DevRef τ sig) = V (main_arg0 : DevRef τ sig) := by
  simp only [after_cons, after_nil]
  rfl

theorem after_arg1 (V : Valuation τ sig (Elt F)) :
    after ops V (main_arg1 : DevRef τ sig) = V (main_arg1 : DevRef τ sig) := by
  simp only [after_cons, after_nil]
  rfl

theorem after_arg2 (V : Valuation τ sig (Elt F)) :
    after ops V (main_arg2 : DevRef τ sig) = V (main_arg2 : DevRef τ sig) := by
  simp only [after_cons, after_nil]
  rfl

theorem after_arg3 (V : Valuation τ sig (Elt F)) :
    after ops V (main_arg3 : DevRef τ sig) = V (main_arg3 : DevRef τ sig) := by
  simp only [after_cons, after_nil]
  rfl

theorem after_arg4 (V : Valuation τ sig (Elt F)) :
    after ops V (main_arg4 : DevRef τ sig) = V (main_arg4 : DevRef τ sig) := by
  simp only [after_cons, after_nil]
  rfl

end ReadBack

/-- For any float values, from any memory with zero counters: every weakly fair execution of @main terminates with
    the two results at their pure terms of the argument arrays and the five arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = out0Term (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_v17)
          = out1Term (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v8).trans (after_v8 _), (h c main_v17).trans (after_v17 _),
        (h c main_arg0).trans (after_arg0 _), (h c main_arg1).trans (after_arg1 _), (h c main_arg2).trans (after_arg2 _),
        (h c main_arg3).trans (after_arg3 _), (h c main_arg4).trans (after_arg4 _)⟩)
    (run_main m ρ)

end Cert.ReferenceIdeal.RefRun

end
-- ==== Proof.RefValue.lean ====
/- The reference's two results at the ideal values, index by index: the named pure terms of the run are the
   interaction block's functions of the argument arrays. -/
import proofs.«151495_j49168785605360_2_alg».proof.Proof.RefRun
import proofs.«151495_j49168785605360_2_alg».proof.Proof.Spec
import Idealize.ShloMosaic.Lib.ValueLayout
import Idealize.ShloMosaic.Lib.StackMember
import Idealize.ShloMosaic.Lib.IdealHost

noncomputable section

open scoped BigOperators

namespace Cert.ReferenceIdeal.RefValue

open Cert.ReferenceIdeal Cert.ReferenceIdeal.Gen Cert.ReferenceIdeal.RefRun Idealize.ShloMosaic Idealize.ShloMosaic.ValueIdx
open Cert.Interaction (oneHot seg dchi ycat hid outA outChi)

/-- The run's one-hot is the interaction block's one-hot of the degree table: the same operations on the same table. -/
theorem oneHot_eq : (oneHotTerm (F := Ideal)) = oneHot lit0 := rfl

/-! ## The two contractions as plain matrix products -/

theorem dot16_eq : dot_S1000000x16_S16x4_S1000000x4_1_0_0_1_n_n = DotDims.plain 1000000 16 4 := rfl
theorem dot132_eq : dot_S1000000x132_S132x132_S1000000x132_1_0_0_1_n_n = DotDims.plain 1000000 132 132 := rfl

/-- The squares against the one-hot, at row n and class l: the sum over the sixteen components. -/
theorem dot16_apply (A : FVec Ideal S1000000x16 .f32) (B : FVec Ideal S16x4 .f32) (n : Fin 1000000) (l : Fin 4) :
    Host.dotGeneral dot_S1000000x16_S16x4_S1000000x4_1_0_0_1_n_n none A B (ix2 n l) = ∑ m : Fin 16, A (ix2 n m) * B (ix2 m l) := by
  rw [dot16_eq]
  exact StackMember.dotGeneral_plain_apply none A B n l

/-- The dense layer's product, at row n and column j: the sum over the 132 entries of the row. -/
theorem dot132_apply (A : FVec Ideal S1000000x132 .f32) (B : FVec Ideal S132x132 .f32) (n : Fin 1000000) (j : Fin 132) :
    Host.dotGeneral dot_S1000000x132_S132x132_S1000000x132_1_0_0_1_n_n none A B (ix2 n j) = ∑ k : Fin 132, A (ix2 n k) * B (ix2 k j) := by
  rw [dot132_eq]
  exact StackMember.dotGeneral_plain_apply none A B n j

/-! ## The layout operations of the hidden array, read at an index -/

/-- The features and the per-class sums side by side, at row n and entry k: the features below 128, the sums from 128. -/
theorem cat_apply (x : FVec Ideal S1000000x128 .f32) (d : FVec Ideal S1000000x4 .f32) (n : Fin 1000000) (k : Fin 132) :
    concatenate S1000000x132 1 [⟨S1000000x128, x⟩, ⟨S1000000x4, d⟩] concatenates_S1000000x128_S1000000x4_S1000000x132_d1 (ix2 n k)
      = if h : k.val < 128 then x (ix2 n ⟨k.val, h⟩) else d (ix2 n ⟨k.val - 128, by omega⟩) := by
  by_cases h : k.val < 128
  · rw [dif_pos h]
    exact concatenate_pair_apply_left 1 x d _ (ix2 n k) rfl (ix2 n ⟨k.val, h⟩)
      (fun b => by match b with | ⟨0, _⟩ => rfl | ⟨1, _⟩ => rfl)
  · rw [dif_neg h]
    exact concatenate_pair_apply_right 1 x d _ (ix2 n k) rfl rfl (ix2 n ⟨k.val - 128, by omega⟩)
      (fun b hb => by
        match b, hb with
        | ⟨0, _⟩, _ => rfl
        | ⟨1, _⟩, hb => exact absurd rfl hb)
      (by show (k.val - 128) + 128 = k.val; omega)

/-- The bias as a row, copied down the rows, at row n and column j: the bias's entry j. -/
theorem bias_apply (b : FVec Ideal S132 .f32) (n : Fin 1000000) (j : Fin 132) :
    broadcastInDim S1000000x132 ![0, 1] bcast_S1x132_S1000000x132_0_1 (broadcastInDim S1x132 ![1] bcast_S132_S1x132_1 b) (ix2 n j)
      = b (ix1 j) :=
  (broadcastInDim_apply _ _ _ (ix2 n j) (ix2 (0 : Fin 1) j) (fun a => by match a with | ⟨0, _⟩ => rfl | ⟨1, _⟩ => rfl)).trans
    (broadcastInDim_apply _ _ _ (ix2 (0 : Fin 1) j) (ix1 j) (fun a => by match a with | ⟨0, _⟩ => rfl))

/-- The hidden array at row n and column j is the interaction block's dense layer there. -/
theorem hid_apply (x : FVec Ideal S1000000x128 .f32) (chi : FVec Ideal S1000000x16 .f32) (W : FVec Ideal S132x132 .f32)
    (b : FVec Ideal S132 .f32) (n : Fin 1000000) (j : Fin 132) :
    hidTerm (F := Ideal) x chi W b (ix2 n j) = hid x chi (oneHot lit0) W b n j := by
  unfold hidTerm hid
  rw [addf_apply, dot132_apply, bias_apply]
  refine congrArg (· + b (ix1 j)) (Finset.sum_congr rfl fun k _ => congrArg (· * W (ix2 k j)) ?_)
  rw [cat_apply]
  unfold ycat
  by_cases h : k.val < 128
  · rw [dif_pos h, dif_pos h]
  · rw [dif_neg h, dif_neg h, dot16_apply]
    unfold dchi
    refine Finset.sum_congr rfl fun m _ => ?_
    rw [mulf_apply, oneHot_eq]

/-- Result 0 is the dense layer's first 128 columns. -/
theorem out0_eq (x : FVec Ideal S1000000x128 .f32) (chi : FVec Ideal S1000000x16 .f32) (W : FVec Ideal S132x132 .f32)
    (b : FVec Ideal S132 .f32) :
    out0Term (F := Ideal) x chi W b = outA x chi (oneHot lit0) W b := by
  funext i
  obtain ⟨n, k, rfl⟩ : ∃ (n : Fin 1000000) (k : Fin 128), i = ix2 n k := ⟨i 0, i 1, eq_ix2 i⟩
  exact (slice2_axis1_apply 0 (hidTerm x chi W b) slices_S1000000x132_S1000000x128_0_0 n k ⟨k.val, by omega⟩
    (Nat.zero_add _).symm).trans (hid_apply x chi W b n _)

/-! ## The gather, read at an index -/

/-- The gather along the columns, at row n and column m: the operand at row n and at the column the start index at m
    names, read signed and clamped into the four columns. -/
theorem gather_apply (X : FVec Ideal S1000000x4 .f32) (idx : IVec S16x1 32) (n : Fin 1000000) (m : Fin 16) :
    Host.gather gather_S1000000x4_S16x1_S1000000x16_0_1_n_n_1_1_10000001 X idx (ix2 n m)
      = X (ix2 n ⟨min (idx (ix2 m (0 : Fin 1))).toInt.toNat 3, by omega⟩) := by
  unfold Host.gather
  congr 1
  funext a
  refine Fin.ext ?_
  match a with
  | ⟨0, _⟩ =>
    -- the row axis: not in the start index map, not a batching axis, the one offset axis
    show gather_S1000000x4_S16x1_S1000000x16_0_1_n_n_1_1_10000001.start (ix2 n m) idx 0 + gather_S1000000x4_S16x1_S1000000x16_0_1_n_n_1_1_10000001.batchCoord (ix2 n m) 0 + gather_S1000000x4_S16x1_S1000000x16_0_1_n_n_1_1_10000001.offCoord (ix2 n m) 0 = n.val
    have hs : gather_S1000000x4_S16x1_S1000000x16_0_1_n_n_1_1_10000001.start (ix2 n m) idx 0 = 0 := by
      unfold GatherDims.start
      exact dif_neg (by decide : (0 : Fin S1000000x4.rank) ∉ gather_S1000000x4_S16x1_S1000000x16_0_1_n_n_1_1_10000001.startIndexMap)
    have ho : gather_S1000000x4_S16x1_S1000000x16_0_1_n_n_1_1_10000001.offCoord (ix2 n m) 0 = n.val := by
      unfold GatherDims.offCoord
      rw [dif_pos (by decide : (0 : Fin S1000000x4.rank) ∈ gather_S1000000x4_S16x1_S1000000x16_0_1_n_n_1_1_10000001.sKept)]
      rfl
    rw [hs, GatherDims.batchCoord_eq_zero _ _ _ List.not_mem_nil, ho]
    omega
  | ⟨1, _⟩ =>
    -- the column axis: the start index's one component, clamped; collapsed, so no offset
    show gather_S1000000x4_S16x1_S1000000x16_0_1_n_n_1_1_10000001.start (ix2 n m) idx 1 + gather_S1000000x4_S16x1_S1000000x16_0_1_n_n_1_1_10000001.batchCoord (ix2 n m) 1 + gather_S1000000x4_S16x1_S1000000x16_0_1_n_n_1_1_10000001.offCoord (ix2 n m) 1
        = min (idx (ix2 m (0 : Fin 1))).toInt.toNat 3
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S1000000x4.rank) ∈ gather_S1000000x4_S16x1_S1000000x16_0_1_n_n_1_1_10000001.startIndexMap from List.mem_singleton.mpr rfl)]
    have hsi : gather_S1000000x4_S16x1_S1000000x16_0_1_n_n_1_1_10000001.siIdx (ix2 n m) ⟨List.idxOf (1 : Fin S1000000x4.rank) gather_S1000000x4_S16x1_S1000000x16_0_1_n_n_1_1_10000001.startIndexMap,
        List.idxOf_lt_length_iff.2 (List.mem_singleton.mpr rfl)⟩ = ix2 m (0 : Fin 1) := by
      funext b; refine Fin.ext ?_
      match b with
      | ⟨0, _⟩ => rfl
      | ⟨1, _⟩ => rfl
    rw [hsi]
    rfl

/-- The start indices at column m are the degree of component m. -/
theorem segIdx_apply (m : Fin 16) : (segIdxTerm (ix2 m (0 : Fin 1))).toInt.toNat = (seg m).val := by
  fin_cases m <;> rfl

/-- Result 1 is the input gated by its degree's column of the dense layer. -/
theorem out1_eq (x : FVec Ideal S1000000x128 .f32) (chi : FVec Ideal S1000000x16 .f32) (W : FVec Ideal S132x132 .f32)
    (b : FVec Ideal S132 .f32) :
    out1Term (F := Ideal) x chi W b = outChi x chi (oneHot lit0) W b := by
  funext i
  obtain ⟨n, m, rfl⟩ : ∃ (n : Fin 1000000) (m : Fin 16), i = ix2 n m := ⟨i 0, i 1, eq_ix2 i⟩
  have hcol : (⟨min (segIdxTerm (ix2 m (0 : Fin 1))).toInt.toNat 3, by omega⟩ : Fin 4) = seg m :=
    Fin.ext (by
      show min (segIdxTerm (ix2 m (0 : Fin 1))).toInt.toNat 3 = (seg m).val
      rw [segIdx_apply]; have := (seg m).isLt; omega)
  show mulf (Host.gather gather_S1000000x4_S16x1_S1000000x16_0_1_n_n_1_1_10000001
      (extractStridedSlice S1000000x4 ![0, 128] (hidTerm x chi W b) slices_S1000000x132_S1000000x4_0_128) segIdxTerm) chi (ix2 n m)
    = hid x chi (oneHot lit0) W b n ⟨128 + (seg m).val, by have := (seg m).isLt; omega⟩ * chi (ix2 n m)
  rw [mulf_apply, gather_apply, hcol]
  refine congrArg (· * chi (ix2 n m)) ?_
  exact (slice2_axis1_apply 128 (hidTerm x chi W b) slices_S1000000x132_S1000000x4_0_128 n (seg m)
    ⟨128 + (seg m).val, by have := (seg m).isLt; omega⟩ rfl).trans (hid_apply x chi W b n _)

end Cert.ReferenceIdeal.RefValue

end
-- ==== Proof.LibMinFold.lean ====
/-
  General lemmas about +∞ and minima over the extended reals, for kernels that take a minimum from +∞ or whose
  precondition says every input entry is finite.

  * `ofBits_inf`: the f32 word of +∞ denotes the top of the extended reals.
  * `real_of_abs_lt`: an extended real whose absolute value max(x, -x) compares strictly below that word is a real
    number — the element fact a "|x| < +∞ everywhere" precondition gives.
  * `le_fold_min_univ`: the lower bounds of a fold of `min` over a whole `Fin n` are the lower bounds of the start and
    of every value — the universal property by which two differently grouped minima are shown equal
    (`eq_of_forall_le_iff`), with no finiteness.
  * `minReduce_single`: a vector minimum-reduction over ONE axis started from +∞, read at a result index, is the fold
    of `min` from that word over the axis's coordinates (`h.lift j k`: the result index with the coordinate inserted).
    Its accumulator hypothesis is typed as programs print it (the word equal to itself), so it applies by
    `refine (minReduce_single src h _ _ j).trans ?_` to a payload unfolded in a goal.
-/
import Idealize.ShloMosaic.PureOps.Ideal
import Idealize.ShloMosaic.PureOps.Ideal.Laws
import Idealize.ShloMosaic.PureOps.Reduce

noncomputable section

namespace Cert.Lib.MinFold

open Idealize.ShloMosaic

/-- The f32 word of +∞ is the top of the extended reals. -/
theorem ofBits_inf : Ideal.ofBits .f32 0x7F800000#32 = (⊤ : EReal) := by
  simp [Ideal.ofBits, Ideal.ieee]

/-- An extended real whose absolute value is strictly below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  have hlt : max x (-x) < ⊤ := by
    unfold Ideal.cmp at h
    by_contra hn
    simp [hn] at h
  induction x using EReal.rec with
  | bot => exact absurd hlt (by simp)
  | coe r => exact ⟨r, rfl⟩
  | top => exact absurd hlt (by simp)

/-- A lower bound of a fold of `min` over a whole finite type bounds the start and every value. -/
theorem le_fold_min_univ {n : Nat} (f : Fin n → EReal) (w c : EReal) :
    c ≤ (Finset.univ : Finset (Fin n)).fold min w f ↔ c ≤ w ∧ ∀ j, c ≤ f j := by
  rw [Finset.le_fold_min]
  exact ⟨fun h => ⟨h.1, fun j => h.2 j (Finset.mem_univ j)⟩, fun h => ⟨h.1, fun j _ => h.2 j⟩⟩

/-- A minimum over ONE axis started from +∞, read at a result index: the fold of `min` from +∞ over that axis's
    coordinates.  (The accumulator's proof is typed as programs print it: the word equal to itself.) -/
theorem minReduce_single {s t : Shape} {a : Fin s.rank} (src : FVec Ideal s .f32) (h : s.Reduces [a] t)
    (hφ : FKind.Formats .f32) (hacc : (0x7F800000#32 : BitVec 32) = 0x7F800000#32) (j : t.Idx) :
    multiReduction .minimumf [a] t src 0x7F800000#32 h hφ hacc j
      = (Finset.univ : Finset (Fin (s.size a))).fold min (Ideal.ofBits .f32 0x7F800000#32) (src ∘ h.lift j) :=
  (multiReduction_minimumf_eq_fold src _ h hφ hacc j).trans (h.fold_filter_drop_single _ _ src j)

end Cert.Lib.MinFold

end
-- ==== Proof.Finite.lean ====
/-
  From the finite-inputs precondition to "every entry is a real number".

  The precondition is the conjunction, over the five input arrays, of "every entry's absolute value is strictly below
  +∞", each conjunct a reduction by `and` of the entrywise comparison.  At the extended reals an entry with
  max(v, -v) < ⊤ is neither ⊤ nor ⊥, so it is the image of a real number.
-/
import proofs.«151495_j49168785605360_2_alg».proof.Proof.Gen.Pre_finite_inputs
import proofs.«151495_j49168785605360_2_alg».proof.Proof.LibMinFold
import Idealize.ShloMosaic.PureOps.Ideal
import Idealize.ShloMosaic.Lib.ReduceAll
import Idealize.ShloMosaic.Lib.ValueIdx

noncomputable section

namespace Cert.Interaction.Finite

open Idealize.ShloMosaic Cert.Pre_finite_inputs

/-- The rank-0 shape has exactly one index. -/
instance : Subsingleton S_.Idx := ⟨fun a b => funext fun d => d.elim0⟩

/-- One conjunct of the precondition: if the `and` over all entries of "|v| < +∞" is 1, every entry of `v` is a real. -/
theorem real_of_all_lt {s : Shape} {axes : List (Fin s.rank)} (v : FVec Ideal s .f32)
    (hb : S_.BroadcastsInDim s (![] : Fin 0 → Fin s.rank)) (hr : s.ReducesTo axes S_) (hu : 0 < S_.numel)
    (e : Host.reduce IntOp.andi
          (cmpf .olt (Host.absf v) (broadcastInDim s ![] hb (constant (F := Ideal) S_ .f32 0x7F800000#32)))
          (constantI S_ 1 1#1) hr hu ValueIdx.ix0 = 1#1)
    (i : s.Idx) : ∃ r : ℝ, v i = (r : EReal) :=
  Cert.Lib.MinFold.real_of_abs_lt (v i) (Host.reduce_andi_all _ _ hr hu _ e i)

/-- Under the finite-inputs precondition every entry of every input array is a real number. -/
theorem real_of_pre [Cert.Pre_finite_inputs.Facts]
    (x : FVec Ideal S1000000x128 .f32) (chi : FVec Ideal S1000000x16 .f32) (pm : FVec Ideal S1000000 .f32)
    (W : FVec Ideal S132x132 .f32) (b : FVec Ideal S132 .f32)
    (h : Cert.Pre_finite_inputs.fn (F := Ideal) x chi pm W b = fun _ => 1#1) :
    (∀ i, ∃ r : ℝ, chi i = (r : EReal)) ∧ (∀ i, ∃ r : ℝ, W i = (r : EReal))
      ∧ (∀ i, ∃ r : ℝ, x i = (r : EReal)) ∧ (∀ i, ∃ r : ℝ, pm i = (r : EReal)) ∧ (∀ i, ∃ r : ℝ, b i = (r : EReal)) := by
  have h0 := congrFun h ValueIdx.ix0
  dsimp only [fn, fn_part1] at h0
  obtain ⟨h1, hb⟩ := IntOp.andi_eq_one.1 h0
  obtain ⟨h2, hW⟩ := IntOp.andi_eq_one.1 h1
  obtain ⟨h3, hpm⟩ := IntOp.andi_eq_one.1 h2
  obtain ⟨hx, hchi⟩ := IntOp.andi_eq_one.1 h3
  exact ⟨real_of_all_lt chi _ _ _ hchi, real_of_all_lt W _ _ _ hW, real_of_all_lt x _ _ _ hx,
    real_of_all_lt pm _ _ _ hpm, real_of_all_lt b _ _ _ hb⟩

end Cert.Interaction.Finite

end
-- ==== Proof.lean ====
/-
  The interaction block (per-degree contraction of chi followed by one dense layer that yields the features a1 and the
  gates of chi), kernel against reference, over the extended reals.

  Reference, per row n:  d[n,l] = Σ_m chi[n,m]²·oh[m,l];  h[n,·] = (x[n,·], d[n,·])·W + b;  a1 = h[:, :128];
  chi_out[n,m] = h[n,128 + seg m]·chi[n,m], where oh is the one-hot of the degree table seg.
  Kernel: the host folds oh into the last four rows of W (Wc = oh·W[128:,:]) and splits the columns, and each of the 200
  grid points computes, for its 5000 rows, a1 = x·Wx[:, :128] + chi²·Wc[:, :128] + b[:128], the gates
  b1 = x·Wx[:, 128:] + chi²·Wc[:, 128:] + b[128:], and chi_out as four column groups b1[:, l]·chi[:, group l].
  The two agree entry by entry once Σ_l (Σ_m chi²[m]·oh[m,l])·W[128+l,j] = Σ_m chi²[m]·(Σ_l oh[m,l]·W[128+l,j]): an exchange
  of two finite sums and a distribution of a factor over a sum, valid on the extended reals because chi and W are finite
  under the precondition and the one-hot's entries are 0 or 1.

  The frames of the two kernel programs are the generated ones; the reference's frame is its run with the results dropped;
  the ideal pass rewrote nothing, so the idealization claim is trivial.
-/
import proofs.«151495_j49168785605360_2_alg».proof.Defs
import proofs.«151495_j49168785605360_2_alg».proof.Proof.Gen.Kernel
import proofs.«151495_j49168785605360_2_alg».proof.Proof.Gen.Kernel.Skeleton
import proofs.«151495_j49168785605360_2_alg».proof.Proof.Gen.Kernel.Launch
import proofs.«151495_j49168785605360_2_alg».proof.Proof.Gen.Kernel.Points
import proofs.«151495_j49168785605360_2_alg».proof.Proof.Gen.Kernel.Frame
import proofs.«151495_j49168785605360_2_alg».proof.Proof.Gen.KernelIdeal
import proofs.«151495_j49168785605360_2_alg».proof.Proof.Gen.KernelIdeal.Skeleton
import proofs.«151495_j49168785605360_2_alg».proof.Proof.Gen.KernelIdeal.Launch
import proofs.«151495_j49168785605360_2_alg».proof.Proof.Gen.KernelIdeal.Points
import proofs.«151495_j49168785605360_2_alg».proof.Proof.Gen.KernelIdeal.Frame
import proofs.«151495_j49168785605360_2_alg».proof.Proof.Gen.KernelIdeal.Value
import proofs.«151495_j49168785605360_2_alg».proof.Proof.Gen.ReferenceIdeal
import proofs.«151495_j49168785605360_2_alg».proof.Proof.Gen.Pre_finite_inputs
import proofs.«151495_j49168785605360_2_alg».proof.Proof.KernelValue
import proofs.«151495_j49168785605360_2_alg».proof.Proof.RefValue
import proofs.«151495_j49168785605360_2_alg».proof.Proof.Finite
import Idealize.ShloMosaic.Adequacy
import Idealize.ShloMosaic.Init

noncomputable section

namespace Cert.Proof

open Idealize.ShloMosaic Idealize.SL.Sem

/-- The two programs carry the same degree table. -/
theorem table_eq : Cert.ReferenceIdeal.lit0 = Cert.KernelIdeal.lit0 := by
  funext i
  fin_cases i <;> rfl

theorem frame_kernel : Cert.frame_Kernel := fun m ρ _ => Cert.Kernel.Gen.frame m ρ

theorem frame_kernelIdeal : Cert.frame_KernelIdeal := fun m ρ _ => Cert.KernelIdeal.Gen.frame m ρ

/-- The reference's run with the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- Both runs end with the two results at the interaction block of the (agreeing) arguments: the kernel's in the folded
    arrangement, the reference's in its own, equal where chi and W are finite. -/
theorem algebraic : Cert.algebraic_KernelIdeal_ReferenceIdeal := by
  intro m ρ m' ρ' hpre hagree
  refine ⟨fun c => Cert.KernelIdeal.Whole.GA m c, fun c => Cert.KernelIdeal.Whole.GChi m c, Cert.KernelIdeal.Whole.run m ρ, ?_⟩
  refine (θ_run Cert.ReferenceIdeal.defs _ _).mono (fun _ h c => ?_) (Cert.ReferenceIdeal.RefRun.run (F := Ideal) m' ρ')
  obtain ⟨h0, h1, hargs⟩ := h c
  obtain ⟨a0, a1, -, a3, a4⟩ := hagree c
  obtain ⟨hchi, hW, -⟩ := Cert.Interaction.Finite.real_of_pre _ _ _ _ _ (hpre c)
  refine ⟨h0.trans ?_, h1.trans ?_, hargs⟩
  · rw [Cert.ReferenceIdeal.RefValue.out0_eq, a0, a1, a3, a4, table_eq]
    exact Cert.Interaction.outA_eq_fold _ _ _ _ _ hchi (Cert.Interaction.oneHot_real _) hW
  · rw [Cert.ReferenceIdeal.RefValue.out1_eq, a0, a1, a3, a4, table_eq]
    exact Cert.Interaction.outChi_eq_fold _ _ _ _ _ hchi (Cert.Interaction.oneHot_real _) hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
